-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S16x3x64x1024 : Shape := ⟨4, ![16, 3, 64, 1024]⟩
abbrev S16x1x64x1024 : Shape := ⟨4, ![16, 1, 64, 1024]⟩
abbrev S16x64x1024 : Shape := ⟨3, ![16, 64, 1024]⟩
abbrev S4096x1024 : Shape := ⟨2, ![4096, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S256x2048 : Shape := ⟨2, ![256, 2048]⟩
abbrev S256x1024 : Shape := ⟨2, ![256, 1024]⟩
abbrev S2048x1024 : Shape := ⟨2, ![2048, 1024]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 25
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S16x3x64x1024, .f32⟩
  | .hbm, ⟨4, _⟩ => ⟨S16x1x64x1024, .f32⟩
  | .hbm, ⟨5, _⟩ => ⟨S16x64x1024, .f32⟩
  | .hbm, ⟨6, _⟩ => ⟨S1024x1024, .f32⟩
  | .hbm, ⟨7, _⟩ => ⟨S1024x1024, .f32⟩
  | .hbm, ⟨8, _⟩ => ⟨S16x1x64x1024, .f32⟩
  | .hbm, ⟨9, _⟩ => ⟨S16x64x1024, .f32⟩
  | .hbm, ⟨10, _⟩ => ⟨S1024x1024, .f32⟩
  | .hbm, ⟨11, _⟩ => ⟨S1024x1024, .f32⟩
  | .hbm, ⟨12, _⟩ => ⟨S16x1x64x1024, .f32⟩
  | .hbm, ⟨13, _⟩ => ⟨S16x64x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S2x2048x1024, .bf16⟩
  | .hbm, ⟨22, _⟩ => ⟨S2x2048x1024, .bf16⟩
  | .hbm, ⟨23, _⟩ => ⟨S2x2048x1024, .bf16⟩
  | .hbm, ⟨24, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1024x1024, .f32⟩
  | .local _ .vmem, ⟨18, _⟩ => ⟨S1x256x1024, .f32⟩
  | .local _ .vmem, ⟨19, _⟩ => ⟨S1x256x1024, .f32⟩
  | .local _ .vmem, ⟨20, _⟩ => ⟨S256x2048, .f32⟩
  | .local _ .vmem, ⟨21, _⟩ => ⟨S256x2048, .bf16⟩
  | .local _ .vmem, ⟨22, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S3072x1024_S16x3x64x1024 : S3072x1024.ShapeCasts S16x3x64x1024
  slices_S16x3x64x1024_S16x1x64x1024_0_0_0_0 : S16x3x64x1024.Slices ![0, 0, 0, 0] S16x1x64x1024
  shapeCasts_S16x1x64x1024_S16x64x1024 : S16x1x64x1024.ShapeCasts S16x64x1024
  shapeCasts_S16x64x1024_S1024x1024 : S16x64x1024.ShapeCasts S1024x1024
  transposes_S1024x1024_S1024x1024_1_0 : S1024x1024.Transposes [1, 0] S1024x1024
  slices_S16x3x64x1024_S16x1x64x1024_0_1_0_0 : S16x3x64x1024.Slices ![0, 1, 0, 0] S16x1x64x1024
  slices_S16x3x64x1024_S16x1x64x1024_0_2_0_0 : S16x3x64x1024.Slices ![0, 2, 0, 0] S16x1x64x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S4096x1024_S2x2048x1024 : S4096x1024.ShapeCasts S2x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S256x1024_o0_0_S256x64 : S256x1024.Slices ![0, 0] S256x64
  slices_S2048x1024_o0_0_S2048x64 : S2048x1024.Slices ![0, 0] S2048x64
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  packedbf16_S256x2048_S256x2048_0_0 : (Rect.unit (s := S256x2048) ![0, 0] S256x2048.size inb_S256x2048_S256x2048_0_0).PackedRows (EltTy.packing .bf16)
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  slices_S256x1024_o0_64_S256x64 : S256x1024.Slices ![0, 64] S256x64
  slices_S2048x1024_o0_64_S2048x64 : S2048x1024.Slices ![0, 64] S2048x64
  inb_S256x1024_S256x64_0_64 : ∀ a, (![0, 64] : Fin 2 → Nat) a + S256x64.size a ≤ S256x1024.size a
  slices_S256x1024_o0_128_S256x64 : S256x1024.Slices ![0, 128] S256x64
  slices_S2048x1024_o0_128_S2048x64 : S2048x1024.Slices ![0, 128] S2048x64
  inb_S256x1024_S256x64_0_128 : ∀ a, (![0, 128] : Fin 2 → Nat) a + S256x64.size a ≤ S256x1024.size a
  slices_S256x1024_o0_192_S256x64 : S256x1024.Slices ![0, 192] S256x64
  slices_S2048x1024_o0_192_S2048x64 : S2048x1024.Slices ![0, 192] S2048x64
  inb_S256x1024_S256x64_0_192 : ∀ a, (![0, 192] : Fin 2 → Nat) a + S256x64.size a ≤ S256x1024.size a
  slices_S256x1024_o0_256_S256x64 : S256x1024.Slices ![0, 256] S256x64
  slices_S2048x1024_o0_256_S2048x64 : S2048x1024.Slices ![0, 256] S2048x64
  inb_S256x1024_S256x64_0_256 : ∀ a, (![0, 256] : Fin 2 → Nat) a + S256x64.size a ≤ S256x1024.size a
  slices_S256x1024_o0_320_S256x64 : S256x1024.Slices ![0, 320] S256x64
  slices_S2048x1024_o0_320_S2048x64 : S2048x1024.Slices ![0, 320] S2048x64
  inb_S256x1024_S256x64_0_320 : ∀ a, (![0, 320] : Fin 2 → Nat) a + S256x64.size a ≤ S256x1024.size a
  slices_S256x1024_o0_384_S256x64 : S256x1024.Slices ![0, 384] S256x64
  slices_S2048x1024_o0_384_S2048x64 : S2048x1024.Slices ![0, 384] S2048x64
  inb_S256x1024_S256x64_0_384 : ∀ a, (![0, 384] : Fin 2 → Nat) a + S256x64.size a ≤ S256x1024.size a
  slices_S256x1024_o0_448_S256x64 : S256x1024.Slices ![0, 448] S256x64
  slices_S2048x1024_o0_448_S2048x64 : S2048x1024.Slices ![0, 448] S2048x64
  inb_S256x1024_S256x64_0_448 : ∀ a, (![0, 448] : Fin 2 → Nat) a + S256x64.size a ≤ S256x1024.size a
  slices_S256x1024_o0_512_S256x64 : S256x1024.Slices ![0, 512] S256x64
  slices_S2048x1024_o0_512_S2048x64 : S2048x1024.Slices ![0, 512] S2048x64
  inb_S256x1024_S256x64_0_512 : ∀ a, (![0, 512] : Fin 2 → Nat) a + S256x64.size a ≤ S256x1024.size a
  slices_S256x1024_o0_576_S256x64 : S256x1024.Slices ![0, 576] S256x64
  slices_S2048x1024_o0_576_S2048x64 : S2048x1024.Slices ![0, 576] S2048x64
  inb_S256x1024_S256x64_0_576 : ∀ a, (![0, 576] : Fin 2 → Nat) a + S256x64.size a ≤ S256x1024.size a
  slices_S256x1024_o0_640_S256x64 : S256x1024.Slices ![0, 640] S256x64
  slices_S2048x1024_o0_640_S2048x64 : S2048x1024.Slices ![0, 640] S2048x64
  inb_S256x1024_S256x64_0_640 : ∀ a, (![0, 640] : Fin 2 → Nat) a + S256x64.size a ≤ S256x1024.size a
  slices_S256x1024_o0_704_S256x64 : S256x1024.Slices ![0, 704] S256x64
  slices_S2048x1024_o0_704_S2048x64 : S2048x1024.Slices ![0, 704] S2048x64
  inb_S256x1024_S256x64_0_704 : ∀ a, (![0, 704] : Fin 2 → Nat) a + S256x64.size a ≤ S256x1024.size a
  slices_S256x1024_o0_768_S256x64 : S256x1024.Slices ![0, 768] S256x64
  slices_S2048x1024_o0_768_S2048x64 : S2048x1024.Slices ![0, 768] S2048x64
  inb_S256x1024_S256x64_0_768 : ∀ a, (![0, 768] : Fin 2 → Nat) a + S256x64.size a ≤ S256x1024.size a
  slices_S256x1024_o0_832_S256x64 : S256x1024.Slices ![0, 832] S256x64
  slices_S2048x1024_o0_832_S2048x64 : S2048x1024.Slices ![0, 832] S2048x64
  inb_S256x1024_S256x64_0_832 : ∀ a, (![0, 832] : Fin 2 → Nat) a + S256x64.size a ≤ S256x1024.size a
  slices_S256x1024_o0_896_S256x64 : S256x1024.Slices ![0, 896] S256x64
  slices_S2048x1024_o0_896_S2048x64 : S2048x1024.Slices ![0, 896] S2048x64
  inb_S256x1024_S256x64_0_896 : ∀ a, (![0, 896] : Fin 2 → Nat) a + S256x64.size a ≤ S256x1024.size a
  slices_S256x1024_o0_960_S256x64 : S256x1024.Slices ![0, 960] S256x64
  slices_S2048x1024_o0_960_S2048x64 : S2048x1024.Slices ![0, 960] S2048x64
  inb_S256x1024_S256x64_0_960 : ∀ a, (![0, 960] : Fin 2 → Nat) a + S256x64.size a ≤ S256x1024.size a
  inb_S256x1024_S256x1024_0_0 : ∀ a, (![0, 0] : Fin 2 → Nat) a + S256x1024.size a ≤ S256x1024.size a
  h_S256x1024 : 0 < S256x1024.numel
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S2x2048x1024.size a
  hwx1_0 : ∀ i : grid1.Coords, EltTy.bits .bf16 = 32 ∨ (Rect.block (s := S2x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x1024.size a
  hwx1_1 : ∀ i : grid1.Coords, EltTy.bits .bf16 = 32 ∨ (Rect.block (s := S2x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x1024.size a
  hwx1_2 : ∀ i : grid1.Coords, EltTy.bits .bf16 = 32 ∨ (Rect.block (s := S2x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S2x2048x1024.size a
  hwx1_4 : ∀ i : grid1.Coords, EltTy.bits .f32 = 32 ∨ (Rect.block (s := S2x2048x1024) S1x256x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v14) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x16x192, .f32⟩
  | .hbm, ⟨5, _⟩ => ⟨S2x16x2048x192, .f32⟩
  | .hbm, ⟨6, _⟩ => ⟨S2x16x2048x64, .f32⟩
  | .hbm, ⟨7, _⟩ => ⟨S2x16x2048x64, .f32⟩
  | .hbm, ⟨8, _⟩ => ⟨S2x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | .hbm, ⟨33, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  The value both programs compute, written once, as plain functions of the argument arrays at the ideal values.

  Multi-head self-attention over x : [2, 2048, 1024] with 16 heads of width 64, no bias:
    * the joint projection  P[n, s, r] = ∑_d x[n, s, d] · w[r, d]  for r < 3072, whose row index is laid out as
      r = 192·h + 64·c + t  (head h, component c ∈ {query, key, value}, lane t);
    * per batch n, head h and query row i the logits  L[j] = (∑_t Q[i, t] · K[j, t]) · (1/8)  over the 2048 keys j,
      their maximum M (taken from −∞), the weights  exp(L[j] − M) / ∑_j exp(L[j] − M),  and the weighted sum of the
      value rows;
    * the heads' results side by side (column 64·h + t) times the transposed output weight.
  Every array is a function from its index type to the extended reals; sums are finite sums in the extended reals,
  in which addition and multiplication are commutative and associative, which is all that rearranging them needs.
-/
import Idealize.ShloMosaic.PureOps.Ideal
import Idealize.ShloMosaic.Lib.ValueIdx

noncomputable section

namespace Cert.Attn

open Idealize.ShloMosaic Idealize.ShloMosaic.ValueIdx

/-- Arrays of shape [2, 2048, 1024] (the input, the three projections, the result). -/
abbrev Act := (⟨3, ![2, 2048, 1024]⟩ : Shape).Idx → EReal
/-- Square weights [1024, 1024]. -/
abbrev Sq := (⟨2, ![1024, 1024]⟩ : Shape).Idx → EReal
/-- The joint projection weight [3072, 1024]. -/
abbrev Wqkv := (⟨2, ![3072, 1024]⟩ : Shape).Idx → EReal

/-- Column 64·h + t of a [·, 1024] array: lane t of head h. -/
def col (h : Fin 16) (t : Fin 64) : Fin 1024 := ⟨64 * h.val + t.val, by omega⟩

/-- Row 192·h + 64·c + t of the joint projection weight: lane t of component c (0 query, 1 key, 2 value) of head h. -/
def row (h : Fin 16) (c : Fin 3) (t : Fin 64) : Fin 3072 := ⟨192 * h.val + 64 * c.val + t.val, by omega⟩

/-- The head of a column of a [·, 1024] array. -/
def headOf (f : Fin 1024) : Fin 16 := ⟨f.val / 64, by omega⟩
/-- The lane of a column of a [·, 1024] array within its head. -/
def laneOf (f : Fin 1024) : Fin 64 := ⟨f.val % 64, by omega⟩

/-- Component c of the projection, in head-major column order: entry (n, s, 64·h + t) is the product of row (n, s) of
    x with row 192·h + 64·c + t of w. -/
def proj (c : Fin 3) (x : Act) (w : Wqkv) : Act := fun j =>
  ∑ d : Fin 1024, x (ix3 (j 0) (j 1) d) * w (ix2 (row (headOf (j 2)) c (laneOf (j 2))) d)

/-- The scale 1/8 = 1/√64 as the f32 word both programs multiply the logits by. -/
abbrev scale : EReal := Ideal.ofBits .f32 0x3E000000#32
/-- The f32 word of −∞, from which both programs start a row's maximum. -/
abbrev negInf : EReal := Ideal.ofBits .f32 0xFF800000#32

/-- The logit of query row i against key row j in batch n, head h. -/
def logit (q k : Act) (n : Fin 2) (h : Fin 16) (i j : Fin 2048) : EReal :=
  (∑ t : Fin 64, q (ix3 n i (col h t)) * k (ix3 n j (col h t))) * scale

/-- The maximum of a query row's logits, taken from −∞ (and once more against −∞, as both programs do). -/
def rowMax (q k : Act) (n : Fin 2) (h : Fin 16) (i : Fin 2048) : EReal :=
  max negInf ((Finset.univ : Finset (Fin 2048)).fold max negInf (fun j => logit q k n h i j))

/-- The exponential of a logit less its row's maximum. -/
def expo (q k : Act) (n : Fin 2) (h : Fin 16) (i j : Fin 2048) : EReal :=
  Ideal.exp (logit q k n h i j - rowMax q k n h i)

/-- The sum of a query row's exponentials. -/
def denom (q k : Act) (n : Fin 2) (h : Fin 16) (i : Fin 2048) : EReal :=
  ∑ j : Fin 2048, expo q k n h i j

/-- The attention weight of key j for query i. -/
def weight (q k : Act) (n : Fin 2) (h : Fin 16) (i j : Fin 2048) : EReal :=
  Ideal.div (expo q k n h i j) (denom q k n h i)

/-- Lane t of head h's result for query row i: the weights against the value rows. -/
def headOut (q k v : Act) (n : Fin 2) (h : Fin 16) (i : Fin 2048) (t : Fin 64) : EReal :=
  ∑ j : Fin 2048, weight q k n h i j * v (ix3 n j (col h t))

/-- The heads' results side by side, times the output weight given transposed (wo[f, e] multiplies column f). -/
def attnOut (q k v : Act) (wo : Sq) : Act := fun j =>
  ∑ f : Fin 1024, headOut q k v (j 0) (headOf f) (j 1) (laneOf f) * wo (ix2 f (j 2))

/-- The transpose of a square weight. -/
def transposeSq (o : Sq) : Sq := fun j => o (ix2 (j 1) (j 0))

/-- The whole computation from the three argument arrays. -/
def result (x : Act) (w : Wqkv) (o : Sq) : Act :=
  attnOut (proj 0 x w) (proj 1 x w) (proj 2 x w) (transposeSq o)

end Cert.Attn

end
-- ==== Proof.KernelRun.lean ====
/-
  The idealized kernel's run with its result array named.

  The program is two kernel regions among host operations.  Its buffers' contents at the segment boundaries are a fold
  from the launch memory: after the first stretch of host operations, after the first region's write-backs, after the
  second stretch, after the second region's write-backs.  Every weakly fair execution terminates without a fault with
  every unscoped buffer at the last of these contents; read at the result array and at the three argument arrays this
  says: the result holds what the second region's write-backs leave in its output array, and the arguments are as
  launched.
-/
import proofs.«147579_j43447889166453_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result array at the
    contents the last boundary of the fold gives it and the argument arrays as launched. -/
theorem run_main : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The result array is the second region's output window 4: the last boundary's contents there are what that
    region's write-backs leave. -/
theorem W4_result (c : Dev nD) :
    W4 m ρ c (Proc.devRef .tc main_v19) = (dat1 (V3 m ρ) c).arrAt 4 cfg1.N :=
  W4_arr m ρ c 4

end Cert.KernelIdeal.Run

end
-- ==== Proof.Body.lean ====
/-
  The second region's body, as one value.

  At a grid point the body reads the query block (256 rows), the key and value blocks (2048 rows) and the output weight,
  and for each of the 16 heads h — columns 64·h … 64·h + 63 of the three blocks — computes the 256 × 2048 logits
  (query rows against key rows, times 1/8), turns each row into weights (exponential of the logit less the row's maximum,
  over the row's sum), and multiplies the weights into the head's 64 value columns; the 256 × 64 result is stored at
  columns 64·h … of a 256 × 1024 buffer.  The logits and the weights pass through two buffers that every head overwrites
  whole, so what a head reads back is what it has just stored.  After the last head the 256 × 1024 buffer is multiplied
  into the output weight.

  Here: the head's computation as ONE function of a column offset, the 256 × 1024 buffer as the overlay of the sixteen
  column pieces, and the fact that what the body leaves in the output window's buffer is the product of that buffer
  with the output weight.
-/
import proofs.«147579_j43447889166453_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The logits of the head at column offset `off`: the head's 64 query columns against its 64 key columns, row by
    row, times the scale. -/
def scoresAt (off : Fin 2 → Nat) (h1 : S256x1024.Slices off S256x64) (h2 : S2048x1024.Slices off S2048x64)
    (q : FVec F S256x1024 .bf16) (k : FVec F S2048x1024 .bf16) : FVec F S256x2048 .f32 :=
  shapeCast S256x2048
    (mulf (matmul dot_S256x64_S2048x64_S256x2048_1_1_0_0_n_n none (extractStridedSlice S256x64 off q h1)
        (extractStridedSlice S2048x64 off k h2) (constant S256x2048 .f32 0x00000000#32))
      (broadcast S256x2048 (Scalar.ofBits .f32 0x3E000000#32)))
    shapeCasts_S256x2048_S256x2048

/-- The weights against the head's 64 value columns. -/
def valuesAt (off : Fin 2 → Nat) (h3 : S2048x1024.Slices off S2048x64) (v : FVec F S2048x1024 .bf16)
    (p : Vec F S256x2048 .bf16) : FVec F S256x64 .f32 :=
  shapeCast S256x64
    (matmul dot_S256x2048_S2048x64_S256x64_1_0_0_1_n_n none p (extractStridedSlice S2048x64 off v h3)
      (constant S256x64 .f32 0x00000000#32))
    shapeCasts_S256x64_S256x64

/-- One head: logits, rows to weights (the first head's payload is the row operation every head applies), weights
    against values. -/
def headAt (off : Fin 2 → Nat) (h1 : S256x1024.Slices off S256x64) (h2 : S2048x1024.Slices off S2048x64)
    (q : FVec F S256x1024 .bf16) (k v : FVec F S2048x1024 .bf16) : FVec F S256x64 .f32 :=
  valuesAt off h2 v (k1_pay8 (scoresAt off h1 h2 q k))

/-- The 256 × 1024 buffer after the sixteen heads: head h's result at columns 64·h … 64·h + 63 (the last store
    first). -/
def attnBuf (q : FVec F S256x1024 .bf16) (k v : FVec F S2048x1024 .bf16) : Vec F S256x1024 .f32 :=
  View.canon [
    ⟨Rect.unit (s := S256x1024) ![0, 960] S256x64.size inb_S256x1024_S256x64_0_960,
      headAt ![0, 960] slices_S256x1024_o0_960_S256x64 slices_S2048x1024_o0_960_S2048x64 q k v⟩,
    ⟨Rect.unit (s := S256x1024) ![0, 896] S256x64.size inb_S256x1024_S256x64_0_896,
      headAt ![0, 896] slices_S256x1024_o0_896_S256x64 slices_S2048x1024_o0_896_S2048x64 q k v⟩,
    ⟨Rect.unit (s := S256x1024) ![0, 832] S256x64.size inb_S256x1024_S256x64_0_832,
      headAt ![0, 832] slices_S256x1024_o0_832_S256x64 slices_S2048x1024_o0_832_S2048x64 q k v⟩,
    ⟨Rect.unit (s := S256x1024) ![0, 768] S256x64.size inb_S256x1024_S256x64_0_768,
      headAt ![0, 768] slices_S256x1024_o0_768_S256x64 slices_S2048x1024_o0_768_S2048x64 q k v⟩,
    ⟨Rect.unit (s := S256x1024) ![0, 704] S256x64.size inb_S256x1024_S256x64_0_704,
      headAt ![0, 704] slices_S256x1024_o0_704_S256x64 slices_S2048x1024_o0_704_S2048x64 q k v⟩,
    ⟨Rect.unit (s := S256x1024) ![0, 640] S256x64.size inb_S256x1024_S256x64_0_640,
      headAt ![0, 640] slices_S256x1024_o0_640_S256x64 slices_S2048x1024_o0_640_S2048x64 q k v⟩,
    ⟨Rect.unit (s := S256x1024) ![0, 576] S256x64.size inb_S256x1024_S256x64_0_576,
      headAt ![0, 576] slices_S256x1024_o0_576_S256x64 slices_S2048x1024_o0_576_S2048x64 q k v⟩,
    ⟨Rect.unit (s := S256x1024) ![0, 512] S256x64.size inb_S256x1024_S256x64_0_512,
      headAt ![0, 512] slices_S256x1024_o0_512_S256x64 slices_S2048x1024_o0_512_S2048x64 q k v⟩,
    ⟨Rect.unit (s := S256x1024) ![0, 448] S256x64.size inb_S256x1024_S256x64_0_448,
      headAt ![0, 448] slices_S256x1024_o0_448_S256x64 slices_S2048x1024_o0_448_S2048x64 q k v⟩,
    ⟨Rect.unit (s := S256x1024) ![0, 384] S256x64.size inb_S256x1024_S256x64_0_384,
      headAt ![0, 384] slices_S256x1024_o0_384_S256x64 slices_S2048x1024_o0_384_S2048x64 q k v⟩,
    ⟨Rect.unit (s := S256x1024) ![0, 320] S256x64.size inb_S256x1024_S256x64_0_320,
      headAt ![0, 320] slices_S256x1024_o0_320_S256x64 slices_S2048x1024_o0_320_S2048x64 q k v⟩,
    ⟨Rect.unit (s := S256x1024) ![0, 256] S256x64.size inb_S256x1024_S256x64_0_256,
      headAt ![0, 256] slices_S256x1024_o0_256_S256x64 slices_S2048x1024_o0_256_S2048x64 q k v⟩,
    ⟨Rect.unit (s := S256x1024) ![0, 192] S256x64.size inb_S256x1024_S256x64_0_192,
      headAt ![0, 192] slices_S256x1024_o0_192_S256x64 slices_S2048x1024_o0_192_S2048x64 q k v⟩,
    ⟨Rect.unit (s := S256x1024) ![0, 128] S256x64.size inb_S256x1024_S256x64_0_128,
      headAt ![0, 128] slices_S256x1024_o0_128_S256x64 slices_S2048x1024_o0_128_S2048x64 q k v⟩,
    ⟨Rect.unit (s := S256x1024) ![0, 64] S256x64.size inb_S256x1024_S256x64_0_64,
      headAt ![0, 64] slices_S256x1024_o0_64_S256x64 slices_S2048x1024_o0_64_S2048x64 q k v⟩,
    ⟨Rect.unit (s := S256x1024) ![0, 0] S256x64.size inb_S256x1024_S256x64_0_0,
      headAt ![0, 0] slices_S256x1024_o0_0_S256x64 slices_S2048x1024_o0_0_S2048x64 q k v⟩]

/-- A load of a whole buffer after any stores reads the overlay of the stores. -/
theorem readCov_whole {Val : EltTy → Type} [∀ e, Nonempty (Val e)] {sig : RefSig} {κ : Kind} {sp : Space} {S : Shape} {e : EltTy}
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

set_option maxHeartbeats 1000000 in
/-- What the body leaves in the output window's buffer: the sixteen heads' buffer times the output weight. -/
theorem out1_eq (c : Dev nD) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x256x1024 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S256x1024 .f32) (harg9 : arg9.IsWhole) (x0 : Vec F S1x256x1024 .bf16) (x1 : Vec F S1x2048x1024 .bf16) (x2 : Vec F S1x2048x1024 .bf16) (x3 : Vec F S1024x1024 .f32) :
    out1_A_4 c i arg2 harg2 arg3 harg3 arg4 harg4 arg5 harg5 arg6 harg6 arg7 harg7 arg8 harg8 arg9 harg9 x0 x1 x2 x3 = k1_pay3 (attnBuf (k1_pay4 x0) (k1_pay5 x1) (k1_pay6 x2)) x3 := by
  unfold out1_A_4
  rw [View.read_writes_eq_canon _ _ _ (cover1_A_4 c i arg2 harg2 arg3 harg3 arg4 harg4 arg5 harg5 arg6 harg6 arg7 harg7 arg8 harg8 arg9 harg9 x0 x1 x2 x3)]
  unfold kernelRun1_A
  dsimp only
  sl_unfold_words
  rw [View.canon_unit_zero hz3]
  simp only [View.readCov_cons_toLoadRect, View.readAt_eq_ld, harg2.read_unread, harg3.read_unread, harg4.read_unread,
    harg5.read_unread, View.ld_unit_zero (S := S1x256x1024) hz3, View.ld_unit_zero (S := S1x2048x1024) hz3,
    View.ld_unit_zero (S := S1024x1024) hz2]
  rw [readCov_whole _ _ hz2]
  rfl

end Cert.KernelIdeal.Body

end
-- ==== Proof.BodyValue.lean ====
/-
  The second region's body read at an index, at the ideal values.

  Each non-pointwise operation of a head is read once, at explicit coordinates: the three matrix products as finite sums
  over the contracted axis, a row maximum as the fold of max over the row from the accumulator's value, a row sum as the
  sum over the row, the column forms [256] → [256, 1] → [256, 2048] as reading the row's entry.  Composed: a head's
  logits, weights and result, and the final product with the output weight, each as a formula in the entries of the
  three blocks and the weight.
-/
import proofs.«147579_j43447889166453_2_alg».proof.Proof.Body
import proofs.«147579_j43447889166453_2_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.BodyValue

open Cert.KernelIdeal Cert.KernelIdeal.Gen Cert.KernelIdeal.Body

/-! ## The three matrix products -/

theorem mmQK_lhs (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem mmQK_rhs (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
/-- This product into a zero accumulator, at row i and column j, is the sum over the 64 contracted positions. -/
theorem mmQK_apply {φ₁ φ₂ : FTy} (a : FVec Ideal S256x64 φ₁) (b : FVec Ideal S2048x64 φ₂) (i : Fin 256) (j : Fin 2048) :
    matmul dot_S256x64_S2048x64_S256x2048_1_1_0_0_n_n none a b (constant S256x2048 .f32 0x00000000#32) (ix2 i j) = ∑ t : Fin 64, a (ix2 i t) * b (ix2 j t) := by
  simp only [matmul]
  rw [Ideal.matmul_constant_zero_apply, ← Equiv.sum_comp (contrEquiv1 dot_S256x64_S2048x64_S256x2048_1_1_0_0_n_n 64 rfl rfl).symm]
  refine Finset.sum_congr rfl fun t _ => ?_
  have hk := contrEquiv1_symm_val dot_S256x64_S2048x64_S256x2048_1_1_0_0_n_n 64 rfl rfl t
  have el : dot_S256x64_S2048x64_S256x2048_1_1_0_0_n_n.lhsIdx (ix2 i j) ((contrEquiv1 dot_S256x64_S2048x64_S256x2048_1_1_0_0_n_n 64 rfl rfl).symm t) = ix2 i t := funext fun a => Fin.ext (by
    match a with
    | ⟨0, _⟩ => exact mmQK_lhs _ _
    | ⟨1, _⟩ => exact (dot_S256x64_S2048x64_S256x2048_1_1_0_0_n_n.lhsIdx_val_of_single rfl _ _).trans hk)
  have er : dot_S256x64_S2048x64_S256x2048_1_1_0_0_n_n.rhsIdx (ix2 i j) ((contrEquiv1 dot_S256x64_S2048x64_S256x2048_1_1_0_0_n_n 64 rfl rfl).symm t) = ix2 j t := funext fun a => Fin.ext (by
    match a with
    | ⟨0, _⟩ => exact mmQK_rhs _ _
    | ⟨1, _⟩ => exact (dot_S256x64_S2048x64_S256x2048_1_1_0_0_n_n.rhsIdx_val_of_single rfl _ _).trans hk)
  rw [el, er]

theorem mmPV_lhs (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem mmPV_rhs (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
/-- This product into a zero accumulator, at row i and column j, is the sum over the 2048 contracted positions. -/
theorem mmPV_apply {φ₁ φ₂ : FTy} (a : FVec Ideal S256x2048 φ₁) (b : FVec Ideal S2048x64 φ₂) (i : Fin 256) (j : Fin 64) :
    matmul dot_S256x2048_S2048x64_S256x64_1_0_0_1_n_n none a b (constant S256x64 .f32 0x00000000#32) (ix2 i j) = ∑ t : Fin 2048, a (ix2 i t) * b (ix2 t j) := by
  simp only [matmul]
  rw [Ideal.matmul_constant_zero_apply, ← Equiv.sum_comp (contrEquiv1 dot_S256x2048_S2048x64_S256x64_1_0_0_1_n_n 2048 rfl rfl).symm]
  refine Finset.sum_congr rfl fun t _ => ?_
  have hk := contrEquiv1_symm_val dot_S256x2048_S2048x64_S256x64_1_0_0_1_n_n 2048 rfl rfl t
  have el : dot_S256x2048_S2048x64_S256x64_1_0_0_1_n_n.lhsIdx (ix2 i j) ((contrEquiv1 dot_S256x2048_S2048x64_S256x64_1_0_0_1_n_n 2048 rfl rfl).symm t) = ix2 i t := funext fun a => Fin.ext (by
    match a with
    | ⟨0, _⟩ => exact mmPV_lhs _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 i j) ((contrEquiv1 dot_S256x2048_S2048x64_S256x64_1_0_0_1_n_n 2048 rfl rfl).symm t) = ix2 t j := funext fun a => Fin.ext (by
    match a with
    | ⟨0, _⟩ => exact (dot_S256x2048_S2048x64_S256x64_1_0_0_1_n_n.rhsIdx_val_of_single rfl _ _).trans hk
    | ⟨1, _⟩ => exact mmPV_rhs _ _)
  rw [el, er]

theorem mmAO_lhs (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mmAO_rhs (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- This product into a zero accumulator, at row i and column j, is the sum over the 1024 contracted positions. -/
theorem mmAO_apply {φ₁ φ₂ : FTy} (a : FVec Ideal S256x1024 φ₁) (b : FVec Ideal S1024x1024 φ₂) (i : Fin 256) (j : Fin 1024) :
    matmul dot_S256x1024_S1024x1024_S256x1024_1_0_0_1_n_n none a b (constant S256x1024 .f32 0x00000000#32) (ix2 i j) = ∑ t : Fin 1024, a (ix2 i t) * b (ix2 t j) := by
  simp only [matmul]
  rw [Ideal.matmul_constant_zero_apply, ← Equiv.sum_comp (contrEquiv1 dot_S256x1024_S1024x1024_S256x1024_1_0_0_1_n_n 1024 rfl rfl).symm]
  refine Finset.sum_congr rfl fun t _ => ?_
  have hk := contrEquiv1_symm_val dot_S256x1024_S1024x1024_S256x1024_1_0_0_1_n_n 1024 rfl rfl t
  have el : dot_S256x1024_S1024x1024_S256x1024_1_0_0_1_n_n.lhsIdx (ix2 i j) ((contrEquiv1 dot_S256x1024_S1024x1024_S256x1024_1_0_0_1_n_n 1024 rfl rfl).symm t) = ix2 i t := funext fun a => Fin.ext (by
    match a with
    | ⟨0, _⟩ => exact mmAO_lhs _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 i j) ((contrEquiv1 dot_S256x1024_S1024x1024_S256x1024_1_0_0_1_n_n 1024 rfl rfl).symm t) = ix2 t j := funext fun a => Fin.ext (by
    match a with
    | ⟨0, _⟩ => exact (dot_S256x1024_S1024x1024_S256x1024_1_0_0_1_n_n.rhsIdx_val_of_single rfl _ _).trans hk
    | ⟨1, _⟩ => exact mmAO_rhs _ _)
  rw [el, er]

/-! ## Rows: maximum, sum, and the column forms -/

/-- Inserting column j at row i of the reduced axis gives entry (i, j). -/
theorem lift_row (i : Fin 256) (j : Fin 2048) : reduces_S256x2048_S256.lift (ix1 i) j = ix2 i j :=
  funext fun a => Fin.ext (by match a with | ⟨0, _⟩ => rfl | ⟨1, _⟩ => rfl)

/-- A row's maximum: the fold of max over the row's 2048 entries from the accumulator's value. -/
theorem rowMax_apply (v : FVec Ideal S256x2048 .f32) (i : Fin 256) :
    multiReduction (F := Ideal) .maximumf [1] S256 v 0xFF800000#32 reduces_S256x2048_S256 (.inl rfl) rfl (ix1 i)
      = (Finset.univ : Finset (Fin 2048)).fold max (Ideal.ofBits .f32 0xFF800000#32) (fun j => v (ix2 i j)) := by
  refine (Ideal.multiReduction_maximumf_single v 0xFF800000#32 reduces_S256x2048_S256 (.inl rfl) rfl (ix1 i)).trans ?_
  refine congrArg (fun f : Fin 2048 → EReal => (Finset.univ : Finset (Fin 2048)).fold max (Ideal.ofBits .f32 0xFF800000#32) f) ?_
  funext j; exact congrArg v (lift_row i j)

/-- A row's sum: the sum of the row's 2048 entries. -/
theorem rowSum_apply (v : FVec Ideal S256x2048 .f32) (i : Fin 256) :
    multiReduction (F := Ideal) .add [1] S256 v 0x00000000#32 reduces_S256x2048_S256 (.inl rfl) rfl (ix1 i)
      = ∑ j : Fin 2048, v (ix2 i j) := by
  refine (Ideal.multiReduction_add_single v 0x00000000#32 reduces_S256x2048_S256 (.inl rfl) rfl (ix1 i)).trans ?_
  exact Finset.sum_congr rfl fun j _ => congrArg v (lift_row i j)

/-- A vector of 256 row values as a column, spread over the 2048 columns, reads the row's value. -/
theorem spread_apply {α : Type} (v : S256.Idx → α) (i : Fin 256) (j : Fin 2048) :
    broadcastTo S256x2048 (shapeCast S256x1 v shapeCasts_S256_S256x1) broadcasts_S256x1_S256x2048 (ix2 i j) = v (ix1 i) := by
  refine (broadcastTo_apply _ _ (ix2 i j) (ix2 i (0 : Fin 1)) (fun a => by
    match a with
    | ⟨0, _⟩ => rfl
    | ⟨1, _⟩ => rfl)).trans ?_
  exact shapeCast_apply v _ (ix2 i (0 : Fin 1)) (ix1 i) (by
    rw [Shape.rowMajor_val_one, Shape.rowMajor_val_two]
    show i.val = i.val * 1 + 0
    omega)

/-- The maximum of row i of s, from −∞ and once more against −∞. -/
def rowM (s : S256x2048.Idx → EReal) (i : Fin 256) : EReal :=
  max (Ideal.ofBits .f32 0xFF800000#32)
    ((Finset.univ : Finset (Fin 2048)).fold max (Ideal.ofBits .f32 0xFF800000#32) (fun j => s (ix2 i j)))

/-- The exponential of entry (i, j) less its row's maximum. -/
def rowE (s : S256x2048.Idx → EReal) (i : Fin 256) (j : Fin 2048) : EReal := Ideal.exp (s (ix2 i j) - rowM s i)

/-- The rows' maxima spread over the columns. -/
def mVec (s : FVec Ideal S256x2048 .f32) : FVec Ideal S256x2048 .f32 :=
  broadcastTo S256x2048 (shapeCast S256x1
    (maximumf (broadcast S256 (Scalar.ofBits .f32 0xFF800000#32))
      (multiReduction .maximumf [1] S256 s 0xFF800000#32 reduces_S256x2048_S256 (.inl rfl) rfl))
    shapeCasts_S256_S256x1) broadcasts_S256x1_S256x2048

/-- The exponentials. -/
def eVec (s : FVec Ideal S256x2048 .f32) : FVec Ideal S256x2048 .f32 := exp (subf s (mVec s))

/-- The rows' sums of exponentials spread over the columns. -/
def zVec (s : FVec Ideal S256x2048 .f32) : FVec Ideal S256x2048 .f32 :=
  broadcastTo S256x2048 (shapeCast S256x1
    (multiReduction .add [1] S256 (eVec s) 0x00000000#32 reduces_S256x2048_S256 (.inl rfl) rfl)
    shapeCasts_S256_S256x1) broadcasts_S256x1_S256x2048

theorem mVec_apply (s : FVec Ideal S256x2048 .f32) (i : Fin 256) (j : Fin 2048) : mVec s (ix2 i j) = rowM s i := by
  unfold mVec
  refine (spread_apply _ i j).trans ?_
  rw [maximumf_apply, rowMax_apply]
  rfl

theorem eVec_apply (s : FVec Ideal S256x2048 .f32) (i : Fin 256) (j : Fin 2048) : eVec s (ix2 i j) = rowE s i j := by
  show Ideal.exp (s (ix2 i j) - mVec s (ix2 i j)) = _
  rw [mVec_apply]; rfl

theorem zVec_apply (s : FVec Ideal S256x2048 .f32) (i : Fin 256) (j : Fin 2048) :
    zVec s (ix2 i j) = ∑ j' : Fin 2048, rowE s i j' := by
  unfold zVec
  refine (spread_apply _ i j).trans ?_
  refine (rowSum_apply (eVec s) i).trans ?_
  exact Finset.sum_congr rfl fun j' _ => eVec_apply s i j'

/-- The row operation every head applies to its logits: entry (i, j) becomes the exponential of the entry less the
    row's maximum, over the row's sum of those exponentials. -/
theorem weights_apply (s : FVec Ideal S256x2048 .f32) (i : Fin 256) (j : Fin 2048) :
    k1_pay8 (F := Ideal) s (ix2 i j) = Ideal.div (rowE s i j) (∑ j' : Fin 2048, rowE s i j') := by
  have e : k1_pay8 (F := Ideal) s
      = shapeCast S256x2048 (truncf .bf16 (divf (eVec s) (zVec s)) bitsLt_bf16_f32) shapeCasts_S256x2048_S256x2048 := rfl
  rw [e, shapeCast_self, truncf_apply, divf_apply, eVec_apply, zVec_apply]

/-! ## A head -/

/-- The logits of the head at column offset off 1, entry (i, j): query row i against key row j over the head's 64
    columns (c t the column at lane t), times the scale. -/
theorem scoresAt_apply (off : Fin 2 → Nat) (h1 : S256x1024.Slices off S256x64) (h2 : S2048x1024.Slices off S2048x64)
    (q : FVec Ideal S256x1024 .bf16) (k : FVec Ideal S2048x1024 .bf16) (h0 : off 0 = 0) (c : Fin 64 → Fin 1024)
    (hc : ∀ t, (c t).val = off 1 + t.val) (i : Fin 256) (j : Fin 2048) :
    scoresAt off h1 h2 q k (ix2 i j)
      = (∑ t : Fin 64, q (ix2 i (c t)) * k (ix2 j (c t))) * Ideal.ofBits .f32 0x3E000000#32 := by
  unfold scoresAt
  rw [shapeCast_self, mulf_apply, broadcast_apply, mmQK_apply]
  refine congrArg (· * Ideal.ofBits .f32 0x3E000000#32) (Finset.sum_congr rfl fun t _ => ?_)
  rw [extractStridedSlice_apply off q h1 (ix2 i t) (ix2 i (c t)) (fun a => by
        match a with
        | ⟨0, _⟩ => show i.val = off 0 + i.val; omega
        | ⟨1, _⟩ => exact hc t),
      extractStridedSlice_apply off k h2 (ix2 j t) (ix2 j (c t)) (fun a => by
        match a with
        | ⟨0, _⟩ => show j.val = off 0 + j.val; omega
        | ⟨1, _⟩ => exact hc t)]

/-- Weights against the head's value columns, entry (i, t). -/
theorem valuesAt_apply (off : Fin 2 → Nat) (h3 : S2048x1024.Slices off S2048x64) (v : FVec Ideal S2048x1024 .bf16)
    (p : FVec Ideal S256x2048 .bf16) (h0 : off 0 = 0) (c : Fin 64 → Fin 1024) (hc : ∀ t, (c t).val = off 1 + t.val)
    (i : Fin 256) (t : Fin 64) :
    valuesAt off h3 v p (ix2 i t) = ∑ j : Fin 2048, p (ix2 i j) * v (ix2 j (c t)) := by
  unfold valuesAt
  rw [shapeCast_self, mmPV_apply]
  refine Finset.sum_congr rfl fun j _ => ?_
  rw [extractStridedSlice_apply off v h3 (ix2 j t) (ix2 j (c t)) (fun a => by
        match a with
        | ⟨0, _⟩ => show j.val = off 0 + j.val; omega
        | ⟨1, _⟩ => exact hc t)]

/-- Head h's logits in block terms, entry (i, j). -/
def blockLogit (q : FVec Ideal S256x1024 .bf16) (k : FVec Ideal S2048x1024 .bf16) (h : Fin 16) (i : Fin 256)
    (j : Fin 2048) : EReal :=
  (∑ t : Fin 64, q (ix2 i (Cert.Attn.col h t)) * k (ix2 j (Cert.Attn.col h t))) * Ideal.ofBits .f32 0x3E000000#32

/-- The same as a 256 × 2048 array. -/
def blockScores (q : FVec Ideal S256x1024 .bf16) (k : FVec Ideal S2048x1024 .bf16) (h : Fin 16) : S256x2048.Idx → EReal :=
  fun y => blockLogit q k h (y 0) (y 1)

theorem col_val (h : Fin 16) (t : Fin 64) : (Cert.Attn.col h t).val = 64 * h.val + t.val := rfl

theorem scoresAt_eq (h : Fin 16) (off : Fin 2 → Nat) (h1 : S256x1024.Slices off S256x64) (h2 : S2048x1024.Slices off S2048x64)
    (q : FVec Ideal S256x1024 .bf16) (k : FVec Ideal S2048x1024 .bf16) (h0 : off 0 = 0) (ho : off 1 = 64 * h.val) :
    scoresAt off h1 h2 q k = blockScores q k h := by
  funext y
  obtain ⟨i, j, rfl⟩ : ∃ (i : Fin 256) (j : Fin 2048), y = ix2 i j := ⟨y 0, y 1, eq_ix2 y⟩
  exact scoresAt_apply off h1 h2 q k h0 (Cert.Attn.col h) (fun t => by rw [col_val, ho]) i j

/-- Head h's result in block terms, entry (i, t): the weights of row i against value column 64·h + t. -/
def headVal (q : FVec Ideal S256x1024 .bf16) (k v : FVec Ideal S2048x1024 .bf16) (h : Fin 16) (i : Fin 256) (t : Fin 64) : EReal :=
  ∑ j : Fin 2048, Ideal.div (rowE (blockScores q k h) i j) (∑ j' : Fin 2048, rowE (blockScores q k h) i j')
    * v (ix2 j (Cert.Attn.col h t))

theorem headAt_eq (h : Fin 16) (off : Fin 2 → Nat) (h1 : S256x1024.Slices off S256x64) (h2 : S2048x1024.Slices off S2048x64)
    (q : FVec Ideal S256x1024 .bf16) (k v : FVec Ideal S2048x1024 .bf16) (h0 : off 0 = 0) (ho : off 1 = 64 * h.val)
    (i : Fin 256) (t : Fin 64) : headAt off h1 h2 q k v (ix2 i t) = headVal q k v h i t := by
  unfold headAt headVal
  rw [valuesAt_apply off h2 v _ h0 (Cert.Attn.col h) (fun t => by rw [col_val, ho]) i t, scoresAt_eq h off h1 h2 q k h0 ho]
  exact Finset.sum_congr rfl fun j _ => by rw [weights_apply]

/-! ## The sixteen heads side by side -/

/-- The 256 × 1024 buffer as one function: column f holds lane f mod 64 of head f / 64. -/
def bufVal (q : FVec Ideal S256x1024 .bf16) (k v : FVec Ideal S2048x1024 .bf16) : S256x1024.Idx → EReal :=
  fun y => headVal q k v (Cert.Attn.headOf (y 1)) (y 0) (Cert.Attn.laneOf (y 1))

/-- The piece at column offset 64·h holds head h: at local entry (i, t) it is the buffer's function at (i, 64·h + t). -/
theorem piece_ok (h : Fin 16) (off : Fin 2 → Nat) (h0 : off 0 = 0) (ho : off 1 = 64 * h.val)
    (h1 : S256x1024.Slices off S256x64) (h2 : S2048x1024.Slices off S2048x64)
    (inb : ∀ a, off a + S256x64.size a ≤ S256x1024.size a)
    (q : FVec Ideal S256x1024 .bf16) (k v : FVec Ideal S2048x1024 .bf16)
    (x : (Rect.unit (s := S256x1024) off S256x64.size inb).shape.Idx) :
    headAt off h1 h2 q k v x = bufVal q k v ((Rect.unit (s := S256x1024) off S256x64.size inb).emb x) := by
  obtain ⟨i, t, rfl⟩ : ∃ (i : Fin 256) (t : Fin 64), x = ix2 i t := ⟨x 0, x 1, eq_ix2 x⟩
  rw [headAt_eq h off h1 h2 q k v h0 ho i t]
  unfold bufVal
  have e0 : (Rect.unit (s := S256x1024) off S256x64.size inb).emb (ix2 i t) 0 = i := Fin.ext (by
    show off 0 + 1 * i.val = i.val; omega)
  have e1 : ((Rect.unit (s := S256x1024) off S256x64.size inb).emb (ix2 i t) 1).val = 64 * h.val + t.val := by
    show off 1 + 1 * t.val = _; omega
  have eh : Cert.Attn.headOf ((Rect.unit (s := S256x1024) off S256x64.size inb).emb (ix2 i t) 1) = h := Fin.ext (by
    show ((Rect.unit (s := S256x1024) off S256x64.size inb).emb (ix2 i t) 1).val / 64 = h.val
    rw [e1]; have := t.isLt; omega)
  have el : Cert.Attn.laneOf ((Rect.unit (s := S256x1024) off S256x64.size inb).emb (ix2 i t) 1) = t := Fin.ext (by
    show ((Rect.unit (s := S256x1024) off S256x64.size inb).emb (ix2 i t) 1).val % 64 = t.val
    rw [e1]; have := t.isLt; omega)
  rw [eh, el, e0]

/-- The buffer after the sixteen heads is that function: the sixteen column pieces tile it, and each holds its head. -/
theorem attnBuf_eq (q : FVec Ideal S256x1024 .bf16) (k v : FVec Ideal S2048x1024 .bf16) :
    attnBuf q k v = bufVal q k v := by
  funext y
  unfold attnBuf
  refine View.canon_apply_of_pieces (Val := Elt Ideal) (S := S256x1024) (e := .f32) (bufVal q k v) _ ?_ y ?_
  swap
  · exact View.cover_of_tiled (s := S256x1024) _ S256x64.size (by rfl) y
  intro p hp x
  simp only [List.mem_cons, List.not_mem_nil, or_false] at hp
  rcases hp with rfl | rfl | rfl | rfl | rfl | rfl | rfl | rfl | rfl | rfl | rfl | rfl | rfl | rfl | rfl | rfl
  · exact piece_ok ⟨15, by omega⟩ ![0, 960] rfl rfl slices_S256x1024_o0_960_S256x64 slices_S2048x1024_o0_960_S2048x64 inb_S256x1024_S256x64_0_960 q k v x
  · exact piece_ok ⟨14, by omega⟩ ![0, 896] rfl rfl slices_S256x1024_o0_896_S256x64 slices_S2048x1024_o0_896_S2048x64 inb_S256x1024_S256x64_0_896 q k v x
  · exact piece_ok ⟨13, by omega⟩ ![0, 832] rfl rfl slices_S256x1024_o0_832_S256x64 slices_S2048x1024_o0_832_S2048x64 inb_S256x1024_S256x64_0_832 q k v x
  · exact piece_ok ⟨12, by omega⟩ ![0, 768] rfl rfl slices_S256x1024_o0_768_S256x64 slices_S2048x1024_o0_768_S2048x64 inb_S256x1024_S256x64_0_768 q k v x
  · exact piece_ok ⟨11, by omega⟩ ![0, 704] rfl rfl slices_S256x1024_o0_704_S256x64 slices_S2048x1024_o0_704_S2048x64 inb_S256x1024_S256x64_0_704 q k v x
  · exact piece_ok ⟨10, by omega⟩ ![0, 640] rfl rfl slices_S256x1024_o0_640_S256x64 slices_S2048x1024_o0_640_S2048x64 inb_S256x1024_S256x64_0_640 q k v x
  · exact piece_ok ⟨9, by omega⟩ ![0, 576] rfl rfl slices_S256x1024_o0_576_S256x64 slices_S2048x1024_o0_576_S2048x64 inb_S256x1024_S256x64_0_576 q k v x
  · exact piece_ok ⟨8, by omega⟩ ![0, 512] rfl rfl slices_S256x1024_o0_512_S256x64 slices_S2048x1024_o0_512_S2048x64 inb_S256x1024_S256x64_0_512 q k v x
  · exact piece_ok ⟨7, by omega⟩ ![0, 448] rfl rfl slices_S256x1024_o0_448_S256x64 slices_S2048x1024_o0_448_S2048x64 inb_S256x1024_S256x64_0_448 q k v x
  · exact piece_ok ⟨6, by omega⟩ ![0, 384] rfl rfl slices_S256x1024_o0_384_S256x64 slices_S2048x1024_o0_384_S2048x64 inb_S256x1024_S256x64_0_384 q k v x
  · exact piece_ok ⟨5, by omega⟩ ![0, 320] rfl rfl slices_S256x1024_o0_320_S256x64 slices_S2048x1024_o0_320_S2048x64 inb_S256x1024_S256x64_0_320 q k v x
  · exact piece_ok ⟨4, by omega⟩ ![0, 256] rfl rfl slices_S256x1024_o0_256_S256x64 slices_S2048x1024_o0_256_S2048x64 inb_S256x1024_S256x64_0_256 q k v x
  · exact piece_ok ⟨3, by omega⟩ ![0, 192] rfl rfl slices_S256x1024_o0_192_S256x64 slices_S2048x1024_o0_192_S2048x64 inb_S256x1024_S256x64_0_192 q k v x
  · exact piece_ok ⟨2, by omega⟩ ![0, 128] rfl rfl slices_S256x1024_o0_128_S256x64 slices_S2048x1024_o0_128_S2048x64 inb_S256x1024_S256x64_0_128 q k v x
  · exact piece_ok ⟨1, by omega⟩ ![0, 64] rfl rfl slices_S256x1024_o0_64_S256x64 slices_S2048x1024_o0_64_S2048x64 inb_S256x1024_S256x64_0_64 q k v x
  · exact piece_ok ⟨0, by omega⟩ ![0, 0] rfl rfl slices_S256x1024_o0_0_S256x64 slices_S2048x1024_o0_0_S2048x64 inb_S256x1024_S256x64_0_0 q k v x

/-! ## The product with the output weight -/

/-- The body's last payload at entry (0, i, e): row i of the buffer against column e of the weight. -/
theorem pay3_apply (A : Vec Ideal S256x1024 .f32) (w : Vec Ideal S1024x1024 .f32) (z : Fin 1) (i : Fin 256) (e : Fin 1024) :
    k1_pay3 (F := Ideal) A w (ix3 z i e) = ∑ f : Fin 1024, A (ix2 i f) * w (ix2 f e) := by
  unfold k1_pay3
  refine (shapeCast_apply _ _ (ix3 z i e) (ix2 i e) (by
    rw [Shape.rowMajor_val_two, Shape.rowMajor_val_three]
    show i.val * 1024 + e.val = (z.val * 256 + i.val) * 1024 + e.val
    have := z.isLt; omega)).trans ?_
  rw [mmAO_apply]
  refine Finset.sum_congr rfl fun f _ => ?_
  rw [truncf_apply, truncf_apply, shapeCast_self]

end Cert.KernelIdeal.BodyValue

end
-- ==== Proof.Bridge.lean ====
/-
  From a grid point's blocks to the specification.

  At grid point (b, g) of the second region the query block is rows 256·g … 256·g + 255 of batch b of the query
  projection, the key and value blocks are all 2048 rows of batch b of the key and value projections, and the weight block
  is the whole transposed output weight.  Under these readings each step of a head is the specification's: the block
  logits are the specification's logits of query row 256·g + i, hence so are the row maximum, the exponentials, their sum
  and the weights; a head's result is the specification's head result; and the product of the sixteen heads side by side
  with the weight is the specification's output at row 256·g + i.
-/
import proofs.«147579_j43447889166453_2_alg».proof.Proof.BodyValue
import proofs.«147579_j43447889166453_2_alg».proof.Proof.Spec

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Body Cert.KernelIdeal.BodyValue
open Cert.Attn (Act Sq)

/-- A [1, 256, 1024] block seen as [256, 1024]. -/
theorem pay4_apply (x0 : Vec Ideal S1x256x1024 .bf16) (i : Fin 256) (f : Fin 1024) :
    k1_pay4 (F := Ideal) x0 (ix2 i f) = x0 (ix3 (0 : Fin 1) i f) := by
  unfold k1_pay4
  exact shapeCast_apply x0 _ (ix2 i f) (ix3 (0 : Fin 1) i f) (by
    rw [Shape.rowMajor_val_three, Shape.rowMajor_val_two]
    show (0 * 256 + i.val) * 1024 + f.val = i.val * 1024 + f.val
    omega)

/-- A [1, 2048, 1024] block seen as [2048, 1024]. -/
theorem pay5_apply (x1 : Vec Ideal S1x2048x1024 .bf16) (j : Fin 2048) (f : Fin 1024) :
    k1_pay5 (F := Ideal) x1 (ix2 j f) = x1 (ix3 (0 : Fin 1) j f) := by
  unfold k1_pay5
  exact shapeCast_apply x1 _ (ix2 j f) (ix3 (0 : Fin 1) j f) (by
    rw [Shape.rowMajor_val_three, Shape.rowMajor_val_two]
    show (0 * 2048 + j.val) * 1024 + f.val = j.val * 1024 + f.val
    omega)

theorem pay6_apply (x2 : Vec Ideal S1x2048x1024 .bf16) (j : Fin 2048) (f : Fin 1024) :
    k1_pay6 (F := Ideal) x2 (ix2 j f) = x2 (ix3 (0 : Fin 1) j f) := by
  unfold k1_pay6
  exact shapeCast_apply x2 _ (ix2 j f) (ix3 (0 : Fin 1) j f) (by
    rw [Shape.rowMajor_val_three, Shape.rowMajor_val_two]
    show (0 * 2048 + j.val) * 1024 + f.val = j.val * 1024 + f.val
    omega)

/-- A head's result in block terms is the specification's head result at the block's row, when the blocks read the
    projections as above. -/
theorem headVal_eq_headOut (q k v : Act) (Qb : FVec Ideal S256x1024 .bf16) (Kb Vb : FVec Ideal S2048x1024 .bf16)
    (b : Fin 2) (R : Fin 2048) (i : Fin 256)
    (hQ : ∀ f : Fin 1024, Qb (ix2 i f) = q (ix3 b R f)) (hK : ∀ (j : Fin 2048) (f : Fin 1024), Kb (ix2 j f) = k (ix3 b j f))
    (hV : ∀ (j : Fin 2048) (f : Fin 1024), Vb (ix2 j f) = v (ix3 b j f)) (h : Fin 16) (t : Fin 64) :
    headVal Qb Kb Vb h i t = Cert.Attn.headOut q k v b h R t := by
  have hL : ∀ j : Fin 2048, blockScores Qb Kb h (ix2 i j) = Cert.Attn.logit q k b h R j := fun j => by
    show blockLogit Qb Kb h i j = _
    unfold blockLogit Cert.Attn.logit
    simp only [hQ, hK]
  have hM : rowM (blockScores Qb Kb h) i = Cert.Attn.rowMax q k b h R := by
    unfold rowM Cert.Attn.rowMax
    simp only [hL]
  have hE : ∀ j : Fin 2048, rowE (blockScores Qb Kb h) i j = Cert.Attn.expo q k b h R j := fun j => by
    unfold rowE Cert.Attn.expo
    rw [hL, hM]
  unfold headVal Cert.Attn.headOut Cert.Attn.weight Cert.Attn.denom
  simp only [hE, hV]

/-- The body's value at a grid point, entry (0, i, e), is the specification's output at (b, R, e), R the block's row. -/
theorem block_value (q k v : Act) (wo : Sq) (x0 : Vec Ideal S1x256x1024 .bf16) (x1 x2 : Vec Ideal S1x2048x1024 .bf16)
    (x3 : Vec Ideal S1024x1024 .f32) (b : Fin 2) (R : Fin 2048) (i : Fin 256)
    (h0 : ∀ f : Fin 1024, x0 (ix3 (0 : Fin 1) i f) = q (ix3 b R f))
    (h1 : ∀ (j : Fin 2048) (f : Fin 1024), x1 (ix3 (0 : Fin 1) j f) = k (ix3 b j f))
    (h2 : ∀ (j : Fin 2048) (f : Fin 1024), x2 (ix3 (0 : Fin 1) j f) = v (ix3 b j f))
    (h3 : ∀ f e : Fin 1024, x3 (ix2 f e) = wo (ix2 f e)) (z : Fin 1) (e : Fin 1024) :
    k1_pay3 (F := Ideal) (attnBuf (k1_pay4 x0) (k1_pay5 x1) (k1_pay6 x2)) x3 (ix3 z i e)
      = Cert.Attn.attnOut q k v wo (ix3 b R e) := by
  rw [pay3_apply, attnBuf_eq]
  show _ = ∑ f : Fin 1024, Cert.Attn.headOut q k v b (Cert.Attn.headOf f) R (Cert.Attn.laneOf f) * wo (ix2 f e)
  refine Finset.sum_congr rfl fun f _ => ?_
  rw [h3]
  refine congrArg (· * wo (ix2 f e)) ?_
  show headVal (k1_pay4 x0) (k1_pay5 x1) (k1_pay6 x2) (Cert.Attn.headOf f) i (Cert.Attn.laneOf f) = _
  exact headVal_eq_headOut q k v _ _ _ b R i (fun f' => (pay4_apply x0 i f').trans (h0 f'))
    (fun j f' => (pay5_apply x1 j f').trans (h1 j f')) (fun j f' => (pay6_apply x2 j f').trans (h2 j f')) _ _

end Cert.KernelIdeal.Bridge

end
-- ==== Proof.Region1.lean ====
/-
  The second region's output array.

  The grid has 2 × 8 points; point t is batch b = t / 8 and row tile g = t mod 8.  The query window's block at t is rows
  256·g … 256·g + 255 of batch b of the query array, the key and value windows' blocks are batch b whole, the weight
  window's block is the whole weight, and the output window's block is rows 256·g … of batch b of the output array.  What
  point t writes back is therefore the specification's output read through that block; the sixteen blocks cover the
  output array (row r of batch n is in the block of point 8·n + r / 256), so the array after the region is the
  specification's output of the four arrays the region was entered with.
-/
import proofs.«147579_j43447889166453_2_alg».proof.Proof.Gen.KernelIdeal.Frame
import proofs.«147579_j43447889166453_2_alg».proof.Proof.Body
import proofs.«147579_j43447889166453_2_alg».proof.Proof.Bridge
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Body

/-- The windows' block indices over the grid of 16 points. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val / 8 ∧ win1_4.index t (1 : Fin 3) = t.val % 8 ∧ win1_4.index t (2 : Fin 3) = 0 :=
  (by decide +kernel : ∀ t : Fin grid1.N, _)

variable (V : (c : Dev nD) → (b : Ref sig .tc) → Buf (Elt Ideal) ((c : Thread nD τ).loc b))

/-- The query block at point t: row i is row 256·(t mod 8) + i of batch t / 8. -/
theorem iblk_q (c : Dev nD) (t : Fin cfg1.N) (z : Fin 1) (i : Fin 256) (f : Fin 1024) (b : Fin 2) (R : Fin 2048)
    (hb : b.val = t.val / 8) (hR : R.val = t.val % 8 * 256 + i.val) :
    ((iblk1 V c 0 t : Vec Ideal S1x256x1024 .bf16) (ix3 z i f) : EReal)
      = (V c main_v16 : S2x2048x1024.Idx → EReal) (ix3 b R f) := by
  obtain ⟨e0, e1, e2, -⟩ := idx_facts t
  unfold iblk1
  rw [View.read_apply]
  show (V c main_v16 : S2x2048x1024.Idx → EReal) _ = _
  congr 1
  funext a
  apply Fin.ext
  match a with
  | ⟨0, _⟩ => show win1_0.index t 0 * 1 + 1 * z.val = b.val; rw [e0, hb]; have := z.isLt; omega
  | ⟨1, _⟩ => show win1_0.index t 1 * 256 + 1 * i.val = R.val; rw [e1, hR]; omega
  | ⟨2, _⟩ => show win1_0.index t 2 * 1024 + 1 * f.val = f.val; rw [e2]; omega

/-- The key block at point t is batch t / 8 whole. -/
theorem iblk_k (c : Dev nD) (t : Fin cfg1.N) (z : Fin 1) (j : Fin 2048) (f : Fin 1024) (b : Fin 2) (hb : b.val = t.val / 8) :
    ((iblk1 V c 1 t : Vec Ideal S1x2048x1024 .bf16) (ix3 z j f) : EReal)
      = (V c main_v17 : S2x2048x1024.Idx → EReal) (ix3 b j f) := by
  obtain ⟨-, -, -, e0, e1, e2, -⟩ := idx_facts t
  unfold iblk1
  rw [View.read_apply]
  show (V c main_v17 : S2x2048x1024.Idx → EReal) _ = _
  congr 1
  funext a
  apply Fin.ext
  match a with
  | ⟨0, _⟩ => show win1_1.index t 0 * 1 + 1 * z.val = b.val; rw [e0, hb]; have := z.isLt; omega
  | ⟨1, _⟩ => show win1_1.index t 1 * 2048 + 1 * j.val = j.val; rw [e1]; omega
  | ⟨2, _⟩ => show win1_1.index t 2 * 1024 + 1 * f.val = f.val; rw [e2]; omega

/-- The value block at point t is batch t / 8 whole. -/
theorem iblk_v (c : Dev nD) (t : Fin cfg1.N) (z : Fin 1) (j : Fin 2048) (f : Fin 1024) (b : Fin 2) (hb : b.val = t.val / 8) :
    ((iblk1 V c 2 t : Vec Ideal S1x2048x1024 .bf16) (ix3 z j f) : EReal)
      = (V c main_v18 : S2x2048x1024.Idx → EReal) (ix3 b j f) := by
  obtain ⟨-, -, -, -, -, -, e0, e1, e2, -⟩ := idx_facts t
  unfold iblk1
  rw [View.read_apply]
  show (V c main_v18 : S2x2048x1024.Idx → EReal) _ = _
  congr 1
  funext a
  apply Fin.ext
  match a with
  | ⟨0, _⟩ => show win1_2.index t 0 * 1 + 1 * z.val = b.val; rw [e0, hb]; have := z.isLt; omega
  | ⟨1, _⟩ => show win1_2.index t 1 * 2048 + 1 * j.val = j.val; rw [e1]; omega
  | ⟨2, _⟩ => show win1_2.index t 2 * 1024 + 1 * f.val = f.val; rw [e2]; omega

/-- The weight block at every point is the whole weight. -/
theorem iblk_w (c : Dev nD) (t : Fin cfg1.N) (f e : Fin 1024) :
    ((iblk1 V c 3 t : Vec Ideal S1024x1024 .f32) (ix2 f e) : EReal) = (V c main_v13 : S1024x1024.Idx → EReal) (ix2 f e) := by
  obtain ⟨-, -, -, -, -, -, -, -, -, e0, e1, -⟩ := idx_facts t
  unfold iblk1
  rw [View.read_apply]
  show (V c main_v13 : S1024x1024.Idx → EReal) _ = _
  congr 1
  funext a
  apply Fin.ext
  match a with
  | ⟨0, _⟩ => show win1_3.index t 0 * 1024 + 1 * f.val = f.val; rw [e0]; omega
  | ⟨1, _⟩ => show win1_3.index t 1 * 1024 + 1 * e.val = e.val; rw [e1]; omega

/-- The specification's output of the four arrays the region is entered with. -/
abbrev spec (c : Dev nD) : S2x2048x1024.Idx → EReal :=
  Cert.Attn.attnOut (V c main_v16 : S2x2048x1024.Idx → EReal) (V c main_v17 : S2x2048x1024.Idx → EReal)
    (V c main_v18 : S2x2048x1024.Idx → EReal) (V c main_v13 : S1024x1024.Idx → EReal)

/-- What point t writes back is the specification's output read through the output window's block at t. -/
theorem flushed_eq (c : Dev nD) (t : Fin cfg1.N) :
    (dat1 (F := Ideal) V c).flushed 4 t = ((cfg1.win 4).blk t).view.read (Elt Ideal) (spec V c) := by
  show (cfg1.win 4).cut (grid1.coords t) ((dat1 V c).after 4 t) = _
  rw [after1_4]
  unfold outsAt1
  rw [out1_eq]
  funext y
  obtain ⟨z, i, e, rfl⟩ : ∃ (z : Fin 1) (i : Fin 256) (e : Fin 1024), y = ix3 z i e := ⟨y 0, y 1, y 2, eq_ix3 y⟩
  have hN : cfg1.N = 16 := N_1
  have ht : t.val < 16 := by have := t.isLt; omega
  obtain ⟨b, hb⟩ : ∃ b : Fin 2, b.val = t.val / 8 := ⟨⟨t.val / 8, by omega⟩, rfl⟩
  obtain ⟨R, hR⟩ : ∃ R : Fin 2048, R.val = t.val % 8 * 256 + i.val := ⟨⟨t.val % 8 * 256 + i.val, by have := i.isLt; omega⟩, rfl⟩
  obtain ⟨-, -, -, -, -, -, -, -, -, -, -, e0, e1, e2⟩ := idx_facts t
  have hemb : ((cfg1.win 4).blk t).view.emb (ix3 z i e) = ix3 b R e := funext fun a => Fin.ext (by
    match a with
    | ⟨0, _⟩ => show win1_4.index t 0 * 1 + 1 * z.val = b.val; rw [e0, hb]; have := z.isLt; omega
    | ⟨1, _⟩ => show win1_4.index t 1 * 256 + 1 * i.val = R.val; rw [e1, hR]; omega
    | ⟨2, _⟩ => show win1_4.index t 2 * 1024 + 1 * e.val = e.val; rw [e2]; omega)
  show (k1_pay3 (attnBuf (k1_pay4 (iblk1 V c 0 t)) (k1_pay5 (iblk1 V c 1 t)) (k1_pay6 (iblk1 V c 2 t))) (iblk1 V c 3 t)
      : S1x256x1024.Idx → EReal) (ix3 z i e) = spec V c (((cfg1.win 4).blk t).view.emb (ix3 z i e))
  rw [hemb]
  exact Cert.KernelIdeal.Bridge.block_value _ _ _ _ (iblk1 V c 0 t) (iblk1 V c 1 t) (iblk1 V c 2 t) (iblk1 V c 3 t) b R i
    (fun f => iblk_q V c t 0 i f b R hb hR) (fun j f => iblk_k V c t 0 j f b hb) (fun j f => iblk_v V c t 0 j f b hb)
    (fun f e' => iblk_w V c t f e') z e

/-- An index of the output array is in point t's block iff each coordinate is in the block's range. -/
theorem mem_blk (t : Fin cfg1.N) (y : S2x2048x1024.Idx) :
    y ∈ ((cfg1.win 4).blk t).view.set ↔ ∀ a : Fin 3, win1_4.index t a * S1x256x1024.size a ≤ (y a).val
      ∧ (y a).val < win1_4.index t a * S1x256x1024.size a + S1x256x1024.size a := by
  show y ∈ ((View.whole main_v19).slice (win1_4.rect t)).set ↔ _
  rw [View.set_slice_whole, Rect.mem_set_unit]
  exact Iff.rfl

/-- Row r of batch n is written back by point 8·n + r / 256. -/
theorem cover (y : S2x2048x1024.Idx) :
    ∃ t : Fin cfg1.N, (cfg1.win 4).flush t = true ∧ y ∈ ((cfg1.win 4).blk t).view.set := by
  have hy0 : (y 0).val < 2 := (y 0).isLt
  have hy1 : (y 1).val < 2048 := (y 1).isLt
  have hy2 : (y 2).val < 1024 := (y 2).isLt
  have hN : cfg1.N = 16 := N_1
  obtain ⟨t, ht⟩ : ∃ t : Fin cfg1.N, t.val = 8 * (y 0).val + (y 1).val / 256 :=
    ⟨⟨8 * (y 0).val + (y 1).val / 256, by rw [hN]; omega⟩, rfl⟩
  obtain ⟨-, -, -, -, -, -, -, -, -, -, -, e0, e1, e2⟩ := idx_facts t
  refine ⟨t, flush1_4 t, ?_⟩
  rw [mem_blk]
  intro a
  match a with
  | ⟨0, _⟩ =>
    show win1_4.index t 0 * 1 ≤ (y 0).val ∧ (y 0).val < win1_4.index t 0 * 1 + 1
    rw [e0, ht]; omega
  | ⟨1, _⟩ =>
    show win1_4.index t 1 * 256 ≤ (y 1).val ∧ (y 1).val < win1_4.index t 1 * 256 + 256
    rw [e1, ht]; omega
  | ⟨2, _⟩ =>
    show win1_4.index t 2 * 1024 ≤ (y 2).val ∧ (y 2).val < win1_4.index t 2 * 1024 + 1024
    rw [e2]; omega

/-- The output array after the second region: the specification's output of the arrays the region was entered with. -/
theorem final (c : Dev nD) : (dat1 (F := Ideal) V c).arrAt 4 cfg1.N = spec V c :=
  (dat1 V c).arrAt_eq_of_cover 4 (spec V c) (fun t _ => flushed_eq V c t) cover

end Cert.KernelIdeal.Region1

end
-- ==== Proof.EntryHost.lean ====
/-
  What the first kernel call is handed, as plain functions of the three argument arrays.

  Before the first call the program only re-lays its arguments out:
    * the input x : [2, 2048, 1024] is flattened to [4096, 1024], row 2048·n + s holding position s of batch n;
    * the joint weight w : [3072, 1024], whose row index is 192·h + 64·c + t (head h, component c, lane t), is read as
      [16, 3, 64, 1024]; each component c is cut out, its heads and lanes merged into one axis e = 64·h + t, and the
      square matrix so obtained transposed, so that entry (d, e) is w[192·(e / 64) + 64·c + e % 64, d];
    * the output weight o : [1024, 1024] is transposed.
  Each layout step moves an entry to the index with the same row-major offset (a reshape), shifts one coordinate by the
  cut's offset (a slice), or swaps coordinates (a transpose); read at an index the chain is a few lines of arithmetic
  with / 64 and % 64.
-/
import proofs.«147579_j43447889166453_2_alg».proof.Proof.Gen.KernelIdeal.Frame
import proofs.«147579_j43447889166453_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.StableHlo
open Idealize.ShloMosaic.ValueIdx
open Idealize.ShloMosaic.Pipeline (Dat)

namespace Cert.Attn.Entry

open Cert.KernelIdeal Cert.KernelIdeal.Gen

/-! ## The activations, flattened to rows -/

/-- Row 2048·n + s of a [4096, ·] array: position s of batch n. -/
def flat (n : Fin 2) (s : Fin 2048) : Fin 4096 := ⟨2048 * n.val + s.val, by omega⟩

/-- An array [2, 2048, 1024] laid out as [4096, 1024]: the two batches' rows one after the other. -/
def flatAct (x : S2x2048x1024.Idx → EReal) : S4096x1024.Idx → EReal :=
  shapeCast S4096x1024 x shapeCasts_S2x2048x1024_S4096x1024

/-- Entry (2048·n + s, d) of the flattened array is entry (n, s, d): both sit at offset (2048·n + s)·1024 + d. -/
theorem flatAct_apply (x : S2x2048x1024.Idx → EReal) (n : Fin 2) (s : Fin 2048) (d : Fin 1024) :
    flatAct x (ix2 (flat n s) d) = x (ix3 n s d) := by
  unfold flatAct
  refine shapeCast_apply x shapeCasts_S2x2048x1024_S4096x1024 (ix2 (flat n s) d) (ix3 n s d) ?_
  rw [Shape.rowMajor_val_three, Shape.rowMajor_val_two]
  show (n.val * 2048 + s.val) * 1024 + d.val = (2048 * n.val + s.val) * 1024 + d.val
  omega

/-- An array [4096, 1024] cut back into two batches of 2048 rows. -/
def unflatAct (y : S4096x1024.Idx → EReal) : S2x2048x1024.Idx → EReal :=
  shapeCast S2x2048x1024 y shapeCasts_S4096x1024_S2x2048x1024

/-- Entry (n, s, e) of the cut array is entry (2048·n + s, e). -/
theorem unflatAct_apply (y : S4096x1024.Idx → EReal) (n : Fin 2) (s : Fin 2048) (e : Fin 1024) :
    unflatAct y (ix3 n s e) = y (ix2 (flat n s) e) := by
  unfold unflatAct
  refine shapeCast_apply y shapeCasts_S4096x1024_S2x2048x1024 (ix3 n s e) (ix2 (flat n s) e) ?_
  rw [Shape.rowMajor_val_three, Shape.rowMajor_val_two]
  show (2048 * n.val + s.val) * 1024 + e.val = (n.val * 2048 + s.val) * 1024 + e.val
  omega

/-! ## One component of the joint weight, as a square matrix with the input feature first -/

/-- The joint weight [3072, 1024] read as [16 heads, 3 components, 64 lanes, 1024], one component cut out, the unit axis
    dropped, heads and lanes merged into one axis of 1024 columns, and the result transposed: entry (d, e) multiplies
    input feature d into column e. -/
def wcomp (off : Fin 4 → Nat) (hs : S16x3x64x1024.Slices off S16x1x64x1024) (w : S3072x1024.Idx → EReal) :
    S1024x1024.Idx → EReal :=
  transpose S1024x1024 [1, 0]
    (shapeCast S1024x1024
      (shapeCast S16x64x1024
        (extractStridedSlice S16x1x64x1024 off (shapeCast S16x3x64x1024 w shapeCasts_S3072x1024_S16x3x64x1024) hs)
        shapeCasts_S16x1x64x1024_S16x64x1024)
      shapeCasts_S16x64x1024_S1024x1024)
    transposes_S1024x1024_S1024x1024_1_0

/-- Entry (d, e) of component cc is the joint weight at row 192·(e / 64) + 64·cc + e % 64, column d. -/
theorem wcomp_apply (off : Fin 4 → Nat) (hs : S16x3x64x1024.Slices off S16x1x64x1024) (w : S3072x1024.Idx → EReal)
    (cc : Fin 3) (h0 : off 0 = 0) (h1 : off 1 = cc.val) (h2 : off 2 = 0) (h3 : off 3 = 0) (d e : Fin 1024) :
    wcomp off hs w (ix2 d e) = w (ix2 (row (headOf e) cc (laneOf e)) d) := by
  unfold wcomp
  have he : e.val < 1024 := e.isLt
  have hd : d.val < 1024 := d.isLt
  have hc : cc.val < 3 := cc.isLt
  -- the transpose swaps the two coordinates
  refine (transpose_apply [1, 0] _ transposes_S1024x1024_S1024x1024_1_0 (ix2 d e) (ix2 e d) (fun b => match b with
    | ⟨0, _⟩ => rfl
    | ⟨1, _⟩ => rfl)).trans ?_
  -- column e is lane e % 64 of head e / 64
  refine (shapeCast_apply _ shapeCasts_S16x64x1024_S1024x1024 (ix2 e d) (ix3 (headOf e) (laneOf e) d) (by
    rw [Shape.rowMajor_val_three, Shape.rowMajor_val_two]
    show (e.val / 64 * 64 + e.val % 64) * 1024 + d.val = e.val * 1024 + d.val
    omega)).trans ?_
  -- the unit axis put back
  refine (shapeCast_apply _ shapeCasts_S16x1x64x1024_S16x64x1024 (ix3 (headOf e) (laneOf e) d) (ix4 (headOf e) (0 : Fin 1) (laneOf e) d) (by
    rw [Shape.rowMajor_val_four, Shape.rowMajor_val_three]
    show ((e.val / 64 * 1 + 0) * 64 + e.val % 64) * 1024 + d.val = (e.val / 64 * 64 + e.val % 64) * 1024 + d.val
    omega)).trans ?_
  -- the cut at component cc
  refine (extractStridedSlice_apply off _ hs (ix4 (headOf e) (0 : Fin 1) (laneOf e) d) (ix4 (headOf e) cc (laneOf e) d) (fun a => match a with
    | ⟨0, _⟩ => by show e.val / 64 = off 0 + e.val / 64; omega
    | ⟨1, _⟩ => by show cc.val = off 1 + 0; omega
    | ⟨2, _⟩ => by show e.val % 64 = off 2 + e.val % 64; omega
    | ⟨3, _⟩ => by show d.val = off 3 + d.val; omega)).trans ?_
  -- (head, component, lane) is row 192·head + 64·component + lane
  exact shapeCast_apply w shapeCasts_S3072x1024_S16x3x64x1024 (ix4 (headOf e) cc (laneOf e) d) (ix2 (row (headOf e) cc (laneOf e)) d) (by
    rw [Shape.rowMajor_val_four, Shape.rowMajor_val_two]
    show (192 * (e.val / 64) + 64 * cc.val + e.val % 64) * 1024 + d.val = (((e.val / 64) * 3 + cc.val) * 64 + e.val % 64) * 1024 + d.val
    omega)

/-- The transpose of a square matrix, read at an index. -/
theorem transposeSq_eq (o : S1024x1024.Idx → EReal) :
    transpose S1024x1024 [1, 0] o transposes_S1024x1024_S1024x1024_1_0 = transposeSq o := by
  funext j
  exact transpose_apply [1, 0] o transposes_S1024x1024_S1024x1024_1_0 j (ix2 (j 1) (j 0)) (fun b => match b with
    | ⟨0, _⟩ => rfl
    | ⟨1, _⟩ => rfl)

/-! ## The buffers the first call is entered with -/

variable (m : (ℓ : Loc nD τ sig) → Buf (Elt Ideal) ℓ) (ρ : Dev nD → PrngReg)

/-- The first call's activation operand is the input flattened to [4096, 1024]. -/
theorem V1_act (c : Dev nD) :
    (V1 (F := Ideal) m ρ c main_v14 : S4096x1024.Idx → EReal) = flatAct (m ((c : Thread nD τ).loc main_arg0)) := by
  dsimp only [Gen.V1, Gen.W1, Gen.hostOps0]
  after_results
  rfl

/-- Its three weight operands are the three components of the joint weight. -/
theorem V1_wq (c : Dev nD) :
    (V1 (F := Ideal) m ρ c main_v4 : S1024x1024.Idx → EReal)
      = wcomp ![0, 0, 0, 0] slices_S16x3x64x1024_S16x1x64x1024_0_0_0_0 (m ((c : Thread nD τ).loc main_arg1)) := by
  dsimp only [Gen.V1, Gen.W1, Gen.hostOps0]
  after_results
  rfl
theorem V1_wk (c : Dev nD) :
    (V1 (F := Ideal) m ρ c main_v8 : S1024x1024.Idx → EReal)
      = wcomp ![0, 1, 0, 0] slices_S16x3x64x1024_S16x1x64x1024_0_1_0_0 (m ((c : Thread nD τ).loc main_arg1)) := by
  dsimp only [Gen.V1, Gen.W1, Gen.hostOps0]
  after_results
  rfl
theorem V1_wv (c : Dev nD) :
    (V1 (F := Ideal) m ρ c main_v12 : S1024x1024.Idx → EReal)
      = wcomp ![0, 2, 0, 0] slices_S16x3x64x1024_S16x1x64x1024_0_2_0_0 (m ((c : Thread nD τ).loc main_arg1)) := by
  dsimp only [Gen.V1, Gen.W1, Gen.hostOps0]
  after_results
  rfl

/-- The output weight is transposed before the first call and not touched again before the second. -/
theorem V1_wo (c : Dev nD) :
    (V1 (F := Ideal) m ρ c main_v13 : S1024x1024.Idx → EReal) = transposeSq (m ((c : Thread nD τ).loc main_arg2)) := by
  dsimp only [Gen.V1, Gen.W1, Gen.hostOps0]
  after_results
  exact transposeSq_eq _

end Cert.Attn.Entry

end
-- ==== Proof.EntryProj.lean ====
/-
  What the first kernel call leaves in its three output arrays.

  The call walks a grid of 8 points. At point t it is handed rows 512·t … 512·t + 511 of the flattened activations
  a : [4096, 1024] and the three square weights b : [1024, 1024] whole, and stores, for each weight, the block product
      out[p, q] = ∑_d a[512·t + p, d] · b[d, q]
  (a product into a zero accumulator; the format changes around it are the identity on extended reals), which is
  written back to rows 512·t … 512·t + 511 of that weight's output array. A block of the output is therefore block t of
  ONE function of the entry arrays, rows times matrix; row r is written by point r / 512, so the eight blocks cover the
  array and it ends holding that function.
-/
import proofs.«147579_j43447889166453_2_alg».proof.Proof.Gen.KernelIdeal.Frame
import proofs.«147579_j43447889166453_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.StableHlo
open Idealize.ShloMosaic.ValueIdx
open Idealize.ShloMosaic.Pipeline (Dat)

namespace Cert.Attn.Entry

open Cert.KernelIdeal Cert.KernelIdeal.Gen

/-! ## The product the first call computes -/

/-- Rows times a matrix: entry (r, e) is the product of row r of a with column e of b. -/
def rowsTimes (a : S4096x1024.Idx → EReal) (b : S1024x1024.Idx → EReal) : S4096x1024.Idx → EReal :=
  fun j => ∑ d : Fin 1024, a (ix2 (j 0) d) * b (ix2 d (j 1))

/-! ## A block product at an index

The body multiplies a block of 512 rows by a whole square matrix into a zero accumulator; the changes of float format
around the product are the identity on extended reals. The contraction index of the product is its one coordinate. -/

theorem lhsIdx_row (i : S512x1024.Idx) (k : (dot_S512x1024_S1024x1024_S512x1024_1_0_0_1_n_n).contr.Idx) :
    ((dot_S512x1024_S1024x1024_S512x1024_1_0_0_1_n_n).lhsIdx i k 0).val = (i 0).val := by
  unfold DotDims.lhsIdx
  rw [dif_neg (show ¬(0 : Fin S512x1024.rank) ∈ (dot_S512x1024_S1024x1024_S512x1024_1_0_0_1_n_n).lhsBatch by decide), dif_pos (show (0 : Fin S512x1024.rank) ∈ (dot_S512x1024_S1024x1024_S512x1024_1_0_0_1_n_n).lhsNonContracting by decide)]
  rfl
theorem lhsIdx_contr (i : S512x1024.Idx) (k : (dot_S512x1024_S1024x1024_S512x1024_1_0_0_1_n_n).contr.Idx) :
    ((dot_S512x1024_S1024x1024_S512x1024_1_0_0_1_n_n).lhsIdx i k 1).val = (k ⟨0, by decide⟩).val :=
  (dot_S512x1024_S1024x1024_S512x1024_1_0_0_1_n_n).lhsIdx_val_of_single rfl i k
theorem rhsIdx_contr (i : S512x1024.Idx) (k : (dot_S512x1024_S1024x1024_S512x1024_1_0_0_1_n_n).contr.Idx) :
    ((dot_S512x1024_S1024x1024_S512x1024_1_0_0_1_n_n).rhsIdx i k 0).val = (k ⟨0, by decide⟩).val :=
  (dot_S512x1024_S1024x1024_S512x1024_1_0_0_1_n_n).rhsIdx_val_of_single rfl i k
theorem rhsIdx_col (i : S512x1024.Idx) (k : (dot_S512x1024_S1024x1024_S512x1024_1_0_0_1_n_n).contr.Idx) :
    ((dot_S512x1024_S1024x1024_S512x1024_1_0_0_1_n_n).rhsIdx i k 1).val = (i 1).val := by
  unfold DotDims.rhsIdx
  rw [dif_neg (show ¬(1 : Fin S1024x1024.rank) ∈ (dot_S512x1024_S1024x1024_S512x1024_1_0_0_1_n_n).rhsBatch by decide), dif_pos (show (1 : Fin S1024x1024.rank) ∈ (dot_S512x1024_S1024x1024_S512x1024_1_0_0_1_n_n).rhsNonContracting by decide)]
  rfl

/-- The block product into a zero accumulator, at entry (p, q): the sum over d of a[p, d] · b[d, q]. -/
theorem blockProduct_apply (a : FVec Ideal S512x1024 .bf16) (b : FVec Ideal S1024x1024 .bf16) (p : Fin 512) (q : Fin 1024) :
    (matmul (F := Ideal) dot_S512x1024_S1024x1024_S512x1024_1_0_0_1_n_n none a b (constant S512x1024 .f32 0x00000000#32) : S512x1024.Idx → EReal) (ix2 p q)
      = ∑ d : Fin 1024, (a (ix2 p d) : EReal) * (b (ix2 d q) : EReal) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : (dot_S512x1024_S1024x1024_S512x1024_1_0_0_1_n_n).lhsIdx (ix2 p q) ((contrEquiv1 dot_S512x1024_S1024x1024_S512x1024_1_0_0_1_n_n 1024 rfl rfl).symm k) = ix2 p k := funext fun a => Fin.ext (by
    match a with
    | ⟨0, _⟩ => exact lhsIdx_row _ _
    | ⟨1, _⟩ => exact (lhsIdx_contr _ _).trans hk)
  have er : (dot_S512x1024_S1024x1024_S512x1024_1_0_0_1_n_n).rhsIdx (ix2 p q) ((contrEquiv1 dot_S512x1024_S1024x1024_S512x1024_1_0_0_1_n_n 1024 rfl rfl).symm k) = ix2 k q := funext fun a => Fin.ext (by
    match a with
    | ⟨0, _⟩ => exact (rhsIdx_contr _ _).trans hk
    | ⟨1, _⟩ => exact rhsIdx_col _ _)
  rw [el, er]

/-- Each of the body's three stored values at entry (p, q). -/
theorem payQ_apply (x0 : Vec Ideal S512x1024 .f32) (x1 : Vec Ideal S1024x1024 .f32) (p : Fin 512) (q : Fin 1024) :
    (k0_pay2 (F := Ideal) x0 x1 : S512x1024.Idx → EReal) (ix2 p q) = ∑ d : Fin 1024, (x0 (ix2 p d) : EReal) * (x1 (ix2 d q) : EReal) := by
  unfold k0_pay2 k0_pay1
  dsimp only
  rw [shapeCast_self, shapeCast_self]
  exact blockProduct_apply _ _ p q
theorem payK_apply (x0 : Vec Ideal S512x1024 .f32) (x1 : Vec Ideal S1024x1024 .f32) (p : Fin 512) (q : Fin 1024) :
    (k0_pay3 (F := Ideal) x0 x1 : S512x1024.Idx → EReal) (ix2 p q) = ∑ d : Fin 1024, (x0 (ix2 p d) : EReal) * (x1 (ix2 d q) : EReal) := by
  unfold k0_pay3 k0_pay1
  dsimp only
  rw [shapeCast_self, shapeCast_self]
  exact blockProduct_apply _ _ p q
theorem payV_apply (x0 : Vec Ideal S512x1024 .f32) (x1 : Vec Ideal S1024x1024 .f32) (p : Fin 512) (q : Fin 1024) :
    (k0_pay4 (F := Ideal) x0 x1 : S512x1024.Idx → EReal) (ix2 p q) = ∑ d : Fin 1024, (x0 (ix2 p d) : EReal) * (x1 (ix2 d q) : EReal) := by
  unfold k0_pay4 k0_pay1
  dsimp only
  rw [shapeCast_self, shapeCast_self]
  exact blockProduct_apply _ _ p q

/-- A stored block against the whole product: when the loaded rows are rows 512·u … 512·u + 511 of a and the loaded
    matrix is b, entry j of the block is entry (512·u + j₀, j₁) of rows-times-matrix. -/
theorem block_eq_rowsTimes (P : Vec Ideal S512x1024 .f32 → Vec Ideal S1024x1024 .f32 → FVec Ideal S512x1024 .bf16)
    (hP : ∀ x0 x1 (p : Fin 512) (q : Fin 1024), (P x0 x1 : S512x1024.Idx → EReal) (ix2 p q) = ∑ d : Fin 1024, (x0 (ix2 p d) : EReal) * (x1 (ix2 d q) : EReal))
    (A : S4096x1024.Idx → EReal) (B : S1024x1024.Idx → EReal)
    (x0 : Vec Ideal S512x1024 .f32) (x1 : Vec Ideal S1024x1024 .f32) (u : Nat)
    (h0 : ∀ (p : Fin 512) (d : Fin 1024) (r : Fin 4096), r.val = u * 512 + p.val → (x0 (ix2 p d) : EReal) = A (ix2 r d))
    (h1 : ∀ (d e : Fin 1024), (x1 (ix2 d e) : EReal) = B (ix2 d e))
    (j : S512x1024.Idx) (i : S4096x1024.Idx) (hi0 : (i 0).val = u * 512 + (j 0).val) (hi1 : (i 1).val = (j 1).val) :
    (P x0 x1 : S512x1024.Idx → EReal) j = rowsTimes A B i := by
  obtain ⟨p, q, rfl⟩ : ∃ (p : Fin 512) (q : Fin 1024), j = ix2 p q := ⟨j 0, j 1, eq_ix2 j⟩
  rw [hP]
  unfold rowsTimes
  refine Finset.sum_congr rfl fun d _ => ?_
  rw [h0 p d (i 0) hi0, h1 d q, show i 1 = q from Fin.ext hi1]

/-! ## The blocks the body is given, and what the three output arrays end holding -/

theorem hz : (![0, 0] : Fin 2 → Nat) = fun _ => 0 := funext fun a => by fin_cases a <;> rfl

/-- The windows' block indices over the grid of 8 points: the activation window and the three output windows are at
    block (t, 0), the weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The activation block at point t is rows 512·t … 512·t + 511 of the activation array. -/
theorem iblk_act (c : Dev nD) (t : Fin cfg0.N) (p : Fin 512) (d : Fin 1024) (r : Fin 4096) (hr : r.val = t.val * 512 + p.val) :
    ((iblk0 V c 0 t : Vec Ideal S512x1024 .f32) (ix2 p d) : EReal) = (V c main_v14 : S4096x1024.Idx → EReal) (ix2 r d) := by
  obtain ⟨e00, e01, -⟩ := idx_facts t
  unfold iblk0
  rw [View.read_apply]
  show (V c main_v14 : S4096x1024.Idx → EReal) _ = _
  congr 1
  funext a
  apply Fin.ext
  match a with
  | ⟨0, _⟩ => show win0_0.index t 0 * 512 + 1 * p.val = r.val; rw [e00, hr]; omega
  | ⟨1, _⟩ => show win0_0.index t 1 * 1024 + 1 * d.val = d.val; rw [e01]; omega

/-- The query weight's block at every point is the whole matrix. -/
theorem iblk_wQ (c : Dev nD) (t : Fin cfg0.N) (d e : Fin 1024) :
    ((iblk0 V c 1 t : Vec Ideal S1024x1024 .f32) (ix2 d e) : EReal) = (V c main_v4 : S1024x1024.Idx → EReal) (ix2 d e) := by
  obtain ⟨-, -, e10, e11, e20, e21, e30, e31, -⟩ := idx_facts t
  unfold iblk0
  rw [View.read_apply]
  show (V c main_v4 : S1024x1024.Idx → EReal) _ = _
  congr 1
  funext a
  apply Fin.ext
  match a with
  | ⟨0, _⟩ => show win0_1.index t 0 * 1024 + 1 * d.val = d.val; rw [e10]; omega
  | ⟨1, _⟩ => show win0_1.index t 1 * 1024 + 1 * e.val = e.val; rw [e11]; omega

/-- What point t writes back to the query output is block t of the activations times the query weight. -/
theorem flushedQ_eq (c : Dev nD) (t : Fin cfg0.N) :
    (dat0 (F := Ideal) V c).flushed 4 t
      = ((cfg0.win 4).blk t).view.read (Elt Ideal) (rowsTimes (V c main_v14) (V c main_v4)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  funext j
  show (k0_pay2 (iblk0 V c 0 t) (iblk0 V c 1 t) : S512x1024.Idx → EReal) j
    = rowsTimes (V c main_v14) (V c main_v4) (((cfg0.win 4).blk t).view.emb j)
  obtain ⟨-, -, -, -, -, -, -, -, e40, e41, e50, e51, e60, e61⟩ := idx_facts t
  refine block_eq_rowsTimes k0_pay2 payQ_apply (V c main_v14) (V c main_v4) (iblk0 V c 0 t) (iblk0 V c 1 t) t.val
    (fun p d r hr => iblk_act V c t p d r hr) (fun d e => iblk_wQ V c t d e) j (((cfg0.win 4).blk t).view.emb j) ?_ ?_
  · show win0_4.index t 0 * 512 + 1 * (j 0).val = t.val * 512 + (j 0).val
    rw [e40]; omega
  · show win0_4.index t 1 * 1024 + 1 * (j 1).val = (j 1).val
    rw [e41]; omega

/-- An index of the query output array is in point t's block iff each coordinate is in the block's range. -/
theorem mem_blkQ (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v15_0).slice (win0_4.rect t)).set ↔ _
  rw [View.set_slice_whole, Rect.mem_set_unit]
  exact Iff.rfl

/-- Row r of the query output array is written back by point r / 512. -/
theorem coverQ (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e40, e41, e50, e51, e60, e61⟩ := idx_facts t
  refine ⟨t, flush0_4 t, ?_⟩
  rw [mem_blkQ]
  intro a
  match a with
  | ⟨0, _⟩ =>
    show win0_4.index t 0 * 512 ≤ (i 0).val ∧ (i 0).val < win0_4.index t 0 * 512 + 512
    rw [e40, ht]; omega
  | ⟨1, _⟩ =>
    show win0_4.index t 1 * 1024 ≤ (i 1).val ∧ (i 1).val < win0_4.index t 1 * 1024 + 1024
    rw [e41]; omega

/-- The query output array after the first call: the activations times the query weight. -/
theorem finalQ (c : Dev nD) :
    (dat0 (F := Ideal) V c).arrAt 4 cfg0.N = rowsTimes (V c main_v14) (V c main_v4) :=
  (dat0 V c).arrAt_eq_of_cover 4 (rowsTimes (V c main_v14) (V c main_v4)) (fun t _ => flushedQ_eq V c t) coverQ

/-- The key weight's block at every point is the whole matrix. -/
theorem iblk_wK (c : Dev nD) (t : Fin cfg0.N) (d e : Fin 1024) :
    ((iblk0 V c 2 t : Vec Ideal S1024x1024 .f32) (ix2 d e) : EReal) = (V c main_v8 : S1024x1024.Idx → EReal) (ix2 d e) := by
  obtain ⟨-, -, e10, e11, e20, e21, e30, e31, -⟩ := idx_facts t
  unfold iblk0
  rw [View.read_apply]
  show (V c main_v8 : S1024x1024.Idx → EReal) _ = _
  congr 1
  funext a
  apply Fin.ext
  match a with
  | ⟨0, _⟩ => show win0_2.index t 0 * 1024 + 1 * d.val = d.val; rw [e20]; omega
  | ⟨1, _⟩ => show win0_2.index t 1 * 1024 + 1 * e.val = e.val; rw [e21]; omega

/-- What point t writes back to the key output is block t of the activations times the key weight. -/
theorem flushedK_eq (c : Dev nD) (t : Fin cfg0.N) :
    (dat0 (F := Ideal) V c).flushed 5 t
      = ((cfg0.win 5).blk t).view.read (Elt Ideal) (rowsTimes (V c main_v14) (V c main_v8)) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz]
  funext j
  show (k0_pay3 (iblk0 V c 0 t) (iblk0 V c 2 t) : S512x1024.Idx → EReal) j
    = rowsTimes (V c main_v14) (V c main_v8) (((cfg0.win 5).blk t).view.emb j)
  obtain ⟨-, -, -, -, -, -, -, -, e40, e41, e50, e51, e60, e61⟩ := idx_facts t
  refine block_eq_rowsTimes k0_pay3 payK_apply (V c main_v14) (V c main_v8) (iblk0 V c 0 t) (iblk0 V c 2 t) t.val
    (fun p d r hr => iblk_act V c t p d r hr) (fun d e => iblk_wK V c t d e) j (((cfg0.win 5).blk t).view.emb j) ?_ ?_
  · show win0_5.index t 0 * 512 + 1 * (j 0).val = t.val * 512 + (j 0).val
    rw [e50]; omega
  · show win0_5.index t 1 * 1024 + 1 * (j 1).val = (j 1).val
    rw [e51]; omega

/-- An index of the key output array is in point t's block iff each coordinate is in the block's range. -/
theorem mem_blkK (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v15_1).slice (win0_5.rect t)).set ↔ _
  rw [View.set_slice_whole, Rect.mem_set_unit]
  exact Iff.rfl

/-- Row r of the key output array is written back by point r / 512. -/
theorem coverK (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e40, e41, e50, e51, e60, e61⟩ := idx_facts t
  refine ⟨t, flush0_5 t, ?_⟩
  rw [mem_blkK]
  intro a
  match a with
  | ⟨0, _⟩ =>
    show win0_5.index t 0 * 512 ≤ (i 0).val ∧ (i 0).val < win0_5.index t 0 * 512 + 512
    rw [e50, ht]; omega
  | ⟨1, _⟩ =>
    show win0_5.index t 1 * 1024 ≤ (i 1).val ∧ (i 1).val < win0_5.index t 1 * 1024 + 1024
    rw [e51]; omega

/-- The key output array after the first call: the activations times the key weight. -/
theorem finalK (c : Dev nD) :
    (dat0 (F := Ideal) V c).arrAt 5 cfg0.N = rowsTimes (V c main_v14) (V c main_v8) :=
  (dat0 V c).arrAt_eq_of_cover 5 (rowsTimes (V c main_v14) (V c main_v8)) (fun t _ => flushedK_eq V c t) coverK

/-- The value weight's block at every point is the whole matrix. -/
theorem iblk_wV (c : Dev nD) (t : Fin cfg0.N) (d e : Fin 1024) :
    ((iblk0 V c 3 t : Vec Ideal S1024x1024 .f32) (ix2 d e) : EReal) = (V c main_v12 : S1024x1024.Idx → EReal) (ix2 d e) := by
  obtain ⟨-, -, e10, e11, e20, e21, e30, e31, -⟩ := idx_facts t
  unfold iblk0
  rw [View.read_apply]
  show (V c main_v12 : S1024x1024.Idx → EReal) _ = _
  congr 1
  funext a
  apply Fin.ext
  match a with
  | ⟨0, _⟩ => show win0_3.index t 0 * 1024 + 1 * d.val = d.val; rw [e30]; omega
  | ⟨1, _⟩ => show win0_3.index t 1 * 1024 + 1 * e.val = e.val; rw [e31]; omega

/-- What point t writes back to the value output is block t of the activations times the value weight. -/
theorem flushedV_eq (c : Dev nD) (t : Fin cfg0.N) :
    (dat0 (F := Ideal) V c).flushed 6 t
      = ((cfg0.win 6).blk t).view.read (Elt Ideal) (rowsTimes (V c main_v14) (V c main_v12)) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz]
  funext j
  show (k0_pay4 (iblk0 V c 0 t) (iblk0 V c 3 t) : S512x1024.Idx → EReal) j
    = rowsTimes (V c main_v14) (V c main_v12) (((cfg0.win 6).blk t).view.emb j)
  obtain ⟨-, -, -, -, -, -, -, -, e40, e41, e50, e51, e60, e61⟩ := idx_facts t
  refine block_eq_rowsTimes k0_pay4 payV_apply (V c main_v14) (V c main_v12) (iblk0 V c 0 t) (iblk0 V c 3 t) t.val
    (fun p d r hr => iblk_act V c t p d r hr) (fun d e => iblk_wV V c t d e) j (((cfg0.win 6).blk t).view.emb j) ?_ ?_
  · show win0_6.index t 0 * 512 + 1 * (j 0).val = t.val * 512 + (j 0).val
    rw [e60]; omega
  · show win0_6.index t 1 * 1024 + 1 * (j 1).val = (j 1).val
    rw [e61]; omega

/-- An index of the value output array is in point t's block iff each coordinate is in the block's range. -/
theorem mem_blkV (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v15_2).slice (win0_6.rect t)).set ↔ _
  rw [View.set_slice_whole, Rect.mem_set_unit]
  exact Iff.rfl

/-- Row r of the value output array is written back by point r / 512. -/
theorem coverV (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e40, e41, e50, e51, e60, e61⟩ := idx_facts t
  refine ⟨t, flush0_6 t, ?_⟩
  rw [mem_blkV]
  intro a
  match a with
  | ⟨0, _⟩ =>
    show win0_6.index t 0 * 512 ≤ (i 0).val ∧ (i 0).val < win0_6.index t 0 * 512 + 512
    rw [e60, ht]; omega
  | ⟨1, _⟩ =>
    show win0_6.index t 1 * 1024 ≤ (i 1).val ∧ (i 1).val < win0_6.index t 1 * 1024 + 1024
    rw [e61]; omega

/-- The value output array after the first call: the activations times the value weight. -/
theorem finalV (c : Dev nD) :
    (dat0 (F := Ideal) V c).arrAt 6 cfg0.N = rowsTimes (V c main_v14) (V c main_v12) :=
  (dat0 V c).arrAt_eq_of_cover 6 (rowsTimes (V c main_v14) (V c main_v12)) (fun t _ => flushedV_eq V c t) coverV

end Cert.Attn.Entry

end
-- ==== Proof.EntryValue.lean ====
/-
  What the second kernel call is entered with, as plain functions of the three argument arrays.

  Between the two calls the program reshapes each of the first call's three output arrays [4096, 1024] back to
  [2, 2048, 1024]: entry (n, s, e) is entry (2048·n + s, e). The first call left there the flattened input times one
  component of the joint weight, so entry (n, s, e) is
      ∑_d x[n, s, d] · w[192·(e / 64) + 64·c + e % 64, d],
  component c of the projection in head-major column order. The transposed output weight is written before the first
  call and by nothing after it.
-/
import proofs.«147579_j43447889166453_2_alg».proof.Proof.Gen.KernelIdeal.Frame
import proofs.«147579_j43447889166453_2_alg».proof.Proof.Spec
import proofs.«147579_j43447889166453_2_alg».proof.Proof.EntryHost
import proofs.«147579_j43447889166453_2_alg».proof.Proof.EntryProj
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.StableHlo
open Idealize.ShloMosaic.ValueIdx
open Idealize.ShloMosaic.Pipeline (Dat)

namespace Cert.Attn.Entry

open Cert.KernelIdeal Cert.KernelIdeal.Gen

variable (m : (ℓ : Loc nD τ sig) → Buf (Elt Ideal) ℓ) (ρ : Dev nD → PrngReg)

/-! ## The second stretch of host operations: three reshapes back to [2, 2048, 1024] -/

theorem V3_q_cast (c : Dev nD) :
    (V3 (F := Ideal) m ρ c main_v16 : S2x2048x1024.Idx → EReal) = unflatAct (W2 m ρ c (Proc.devRef .tc main_v15_0)) := by
  dsimp only [Gen.V3, Gen.W3, Gen.hostOps1]
  after_results
  rfl
theorem V3_k_cast (c : Dev nD) :
    (V3 (F := Ideal) m ρ c main_v17 : S2x2048x1024.Idx → EReal) = unflatAct (W2 m ρ c (Proc.devRef .tc main_v15_1)) := by
  dsimp only [Gen.V3, Gen.W3, Gen.hostOps1]
  after_results
  rfl
theorem V3_v_cast (c : Dev nD) :
    (V3 (F := Ideal) m ρ c main_v18 : S2x2048x1024.Idx → EReal) = unflatAct (W2 m ρ c (Proc.devRef .tc main_v15_2)) := by
  dsimp only [Gen.V3, Gen.W3, Gen.hostOps1]
  after_results
  rfl

/-! ## The first call's output arrays at the second call's entry -/

theorem W2_q (c : Dev nD) :
    (W2 (F := Ideal) m ρ c (Proc.devRef .tc main_v15_0) : S4096x1024.Idx → EReal)
      = rowsTimes (flatAct (m ((c : Thread nD τ).loc main_arg0)))
          (wcomp ![0, 0, 0, 0] slices_S16x3x64x1024_S16x1x64x1024_0_0_0_0 (m ((c : Thread nD τ).loc main_arg1))) := by
  rw [← V1_act m ρ c, ← V1_wq m ρ c]
  exact (W2_arr m ρ c 4).trans (finalQ (V1 m ρ) c)
theorem W2_k (c : Dev nD) :
    (W2 (F := Ideal) m ρ c (Proc.devRef .tc main_v15_1) : S4096x1024.Idx → EReal)
      = rowsTimes (flatAct (m ((c : Thread nD τ).loc main_arg0)))
          (wcomp ![0, 1, 0, 0] slices_S16x3x64x1024_S16x1x64x1024_0_1_0_0 (m ((c : Thread nD τ).loc main_arg1))) := by
  rw [← V1_act m ρ c, ← V1_wk m ρ c]
  exact (W2_arr m ρ c 5).trans (finalK (V1 m ρ) c)
theorem W2_v (c : Dev nD) :
    (W2 (F := Ideal) m ρ c (Proc.devRef .tc main_v15_2) : S4096x1024.Idx → EReal)
      = rowsTimes (flatAct (m ((c : Thread nD τ).loc main_arg0)))
          (wcomp ![0, 2, 0, 0] slices_S16x3x64x1024_S16x1x64x1024_0_2_0_0 (m ((c : Thread nD τ).loc main_arg1))) := by
  rw [← V1_act m ρ c, ← V1_wv m ρ c]
  exact (W2_arr m ρ c 6).trans (finalV (V1 m ρ) c)

/-! ## Rows times a component of the joint weight, cut back into batches, is that component of the projection -/

/-- Entry (n, s, e): row 2048·n + s of the flattened input against column e of component cc, which is row
    192·(e / 64) + 64·cc + e % 64 of the joint weight. -/
theorem unflat_rowsTimes (off : Fin 4 → Nat) (hs : S16x3x64x1024.Slices off S16x1x64x1024) (cc : Fin 3)
    (h0 : off 0 = 0) (h1 : off 1 = cc.val) (h2 : off 2 = 0) (h3 : off 3 = 0)
    (x : S2x2048x1024.Idx → EReal) (w : S3072x1024.Idx → EReal) :
    unflatAct (rowsTimes (flatAct x) (wcomp off hs w)) = proj cc x w := by
  funext j
  obtain ⟨n, s, e, rfl⟩ : ∃ (n : Fin 2) (s : Fin 2048) (e : Fin 1024), j = ix3 n s e := ⟨j 0, j 1, j 2, eq_ix3 j⟩
  rw [unflatAct_apply]
  show ∑ d : Fin 1024, flatAct x (ix2 (flat n s) d) * wcomp off hs w (ix2 d e)
    = ∑ d : Fin 1024, x (ix3 n s d) * w (ix2 (row (headOf e) cc (laneOf e)) d)
  refine Finset.sum_congr rfl fun d _ => ?_
  rw [flatAct_apply, wcomp_apply off hs w cc h0 h1 h2 h3]

/-! ## What the second call is entered with -/

/-- The query operand is the query projection, in head-major column order. -/
theorem V3_q (c : Dev nD) :
    (V3 (F := Ideal) m ρ c main_v16 : S2x2048x1024.Idx → EReal)
      = proj 0 (m ((c : Thread nD τ).loc main_arg0)) (m ((c : Thread nD τ).loc main_arg1)) := by
  rw [V3_q_cast, W2_q]
  exact unflat_rowsTimes _ _ 0 rfl rfl rfl rfl _ _

/-- The key operand is the key projection. -/
theorem V3_k (c : Dev nD) :
    (V3 (F := Ideal) m ρ c main_v17 : S2x2048x1024.Idx → EReal)
      = proj 1 (m ((c : Thread nD τ).loc main_arg0)) (m ((c : Thread nD τ).loc main_arg1)) := by
  rw [V3_k_cast, W2_k]
  exact unflat_rowsTimes _ _ 1 rfl rfl rfl rfl _ _

/-- The value operand is the value projection. -/
theorem V3_v (c : Dev nD) :
    (V3 (F := Ideal) m ρ c main_v18 : S2x2048x1024.Idx → EReal)
      = proj 2 (m ((c : Thread nD τ).loc main_arg0)) (m ((c : Thread nD τ).loc main_arg1)) := by
  rw [V3_v_cast, W2_v]
  exact unflat_rowsTimes _ _ 2 rfl rfl rfl rfl _ _

/-- The output-weight operand is the transposed output weight: neither the first call nor the reshapes after it write it. -/
theorem V3_wo (c : Dev nD) :
    (V3 (F := Ideal) m ρ c main_v13 : S1024x1024.Idx → EReal) = transposeSq (m ((c : Thread nD τ).loc main_arg2)) := by
  rw [← V1_wo m ρ c]
  dsimp only [Gen.V3, Gen.W3, Gen.hostOps1]
  after_results
  exact W2_of_ne m ρ c main_v13 (by decide)

end Cert.Attn.Entry

end
-- ==== Proof.RefConsts.lean ====
/-
  The one place where the two programs spell a number differently: the reference computes the logits' scale as
  1 / √64 on scalars, where the other side multiplies by the f32 word of 0.125. At the ideal values both are the
  real number 1/8: the words of 1.0 and 64.0 denote 1 and 64, √64 = 8 since 64 = 8², and dividing an extended real
  by the nonzero real 8 is multiplying it by 1/8.
-/
import proofs.«147579_j43447889166453_2_alg».proof.Proof.Spec
import Idealize.ShloMosaic.PureOps.Ideal.Laws

noncomputable section

namespace Cert.Attn.Ref

open Idealize.ShloMosaic

/-- The f32 word of 1.0 denotes the real 1. -/
theorem ofBits_one : Ideal.ofBits .f32 0x3F800000#32 = ((1 : ℝ) : EReal) := by
  simp [Ideal.ofBits, Ideal.ieee, -EReal.coe_mul]; norm_num

/-- The f32 word of 64.0 denotes the real 64. -/
theorem ofBits_sixtyfour : Ideal.ofBits .f32 0x42800000#32 = ((64 : ℝ) : EReal) := by
  simp [Ideal.ofBits, Ideal.ieee, -EReal.coe_mul]; norm_num

/-- The f32 word of 0.125 denotes the real 1/8. -/
theorem ofBits_eighth : Ideal.ofBits .f32 0x3E000000#32 = ((1 / 8 : ℝ) : EReal) := by
  simp [Ideal.ofBits, Ideal.ieee, -EReal.coe_mul]; norm_num

/-- √64 = 8. -/
theorem sqrt_sixtyfour : Real.sqrt 64 = 8 := by
  rw [show (64 : ℝ) = 8 ^ 2 by norm_num]
  exact Real.sqrt_sq (by norm_num)

/-- The scalar the reference broadcasts over the logits, 1.0 / √64.0, is the scale 1/8 of the specification. -/
theorem scale_eq :
    Ideal.div (Ideal.ofBits .f32 0x3F800000#32) (Ideal.sqrt (Ideal.ofBits .f32 0x42800000#32)) = Cert.Attn.scale := by
  show _ = Ideal.ofBits .f32 0x3E000000#32
  rw [ofBits_one, ofBits_sixtyfour, ofBits_eighth, Ideal.sqrt_coe, if_neg (by norm_num), sqrt_sixtyfour,
    Ideal.div_coe (by norm_num : (8 : ℝ) ≠ 0), ← EReal.coe_mul, one_mul]

end Cert.Attn.Ref

end
-- ==== Proof.RefIndex.lean ====
/-
  The arithmetic of the two column layouts, and the specification's functions read at an index given by its
  coordinates.

  A column f < 1024 of a [·, 1024] array is lane t = f mod 64 of head h = f div 64, that is f = 64·h + t; a row
  r < 3072 of the joint projection weight is 192·h + 64·c + t. The facts below say that (h, t) ↦ 64·h + t and
  f ↦ (f div 64, f mod 64) are inverse to one another, and unfold each function of the specification at an index
  whose coordinates are named, so that a proof about one program can rewrite with them and never open the
  coordinate functions again.
-/
import proofs.«147579_j43447889166453_2_alg».proof.Proof.Spec

noncomputable section

namespace Cert.Attn.Ref

open Idealize.ShloMosaic Idealize.ShloMosaic.ValueIdx Cert.Attn

/-- The head of column 64·h + t is h. -/
theorem headOf_col (h : Fin 16) (t : Fin 64) : headOf (col h t) = h :=
  Fin.ext (by have := h.isLt; have := t.isLt; show (64 * h.val + t.val) / 64 = h.val; omega)

/-- The lane of column 64·h + t is t. -/
theorem laneOf_col (h : Fin 16) (t : Fin 64) : laneOf (col h t) = t :=
  Fin.ext (by have := h.isLt; have := t.isLt; show (64 * h.val + t.val) % 64 = t.val; omega)

/-- Every column is the column of its head and lane. -/
theorem col_headOf_laneOf (f : Fin 1024) : col (headOf f) (laneOf f) = f :=
  Fin.ext (by have := f.isLt; show 64 * (f.val / 64) + f.val % 64 = f.val; omega)

/-- The projection at batch n, position s, head h, lane t: row (n, s) of x against row 192·h + 64·c + t of w. -/
theorem proj_apply (c : Fin 3) (x : Act) (w : Wqkv) (n : Fin 2) (s : Fin 2048) (h : Fin 16) (t : Fin 64) :
    proj c x w (ix3 n s (col h t)) = ∑ d : Fin 1024, x (ix3 n s d) * w (ix2 (row h c t) d) := by
  show ∑ d : Fin 1024, x (ix3 n s d) * w (ix2 (row (headOf (col h t)) c (laneOf (col h t))) d) = _
  rw [headOf_col, laneOf_col]

/-- The result at batch n, position s, output column e: the heads' results, column f = 64·h + t holding lane t of
    head h, against column e of the output weight. -/
theorem attnOut_apply (q k v : Act) (wo : Sq) (n : Fin 2) (s : Fin 2048) (e : Fin 1024) :
    attnOut q k v wo (ix3 n s e)
      = ∑ f : Fin 1024, headOut q k v n (headOf f) s (laneOf f) * wo (ix2 f e) := rfl

/-- The transposed weight at (f, e) is the weight at (e, f). -/
theorem transposeSq_apply (o : Sq) (f e : Fin 1024) : transposeSq o (ix2 f e) = o (ix2 e f) := rfl

end Cert.Attn.Ref

end
-- ==== Proof.RefValue.lean ====
/-
  The reference program, stage by stage, is the specification.

  The reference computes the joint projection x·wᵀ as one [2, 2048, 3072] array, reshapes its last axis into
  16 heads of 192 lanes, moves the head axis forward and cuts the 192 lanes into three pieces of 64: query, key and
  value. Lane t of piece c of head h is therefore column 192·h + 64·c + t of the joint projection, which is how the
  specification numbers the rows of w. The logits are the query rows against the key rows times 1/√64, the softmax is
  taken over the key axis (maximum from −∞, exponential of the difference, sum from 0, quotient), the weighted value
  rows are put back side by side (head h, lane t at column 64·h + t) and multiplied by the output weight transposed.

  Each lemma below reads one stage at an index given by its coordinates and identifies it with the corresponding
  function of the specification; the composed index maps of the layout operations are computed once per stage, the
  only arithmetic being the division with remainder of a flattened index. Nothing here needs a finite input: the two
  sides are literally the same sums.
-/
import proofs.«147579_j43447889166453_2_alg».proof.Proof.Gen.ReferenceIdeal.Run
import proofs.«147579_j43447889166453_2_alg».proof.Proof.Gen.ReferenceIdeal.Read
import proofs.«147579_j43447889166453_2_alg».proof.Proof.Spec
import proofs.«147579_j43447889166453_2_alg».proof.Proof.RefConsts
import proofs.«147579_j43447889166453_2_alg».proof.Proof.RefIndex

noncomputable section

namespace Cert.Attn.Ref

open Idealize.ShloMosaic Idealize.ShloMosaic.ValueIdx Idealize.ShloMosaic.TcCoe Idealize.SL.Sem
open Cert.ReferenceIdeal Cert.ReferenceIdeal.Gen Cert.ReferenceIdeal.Read Cert.Attn

/-! ## The three pieces of the joint projection -/

/-- The query piece: lane t of head h at position s is column 192·h + 64·0 + t of the joint projection, that is
    component 0 of the projection at column 64·h + t. -/
theorem query_apply (x : Act) (w : Wqkv) (n : Fin 2) (h : Fin 16) (s : Fin 2048) (t : Fin 64) :
    val_main_v3 (F := Ideal) x w (ix4 n h s t) = proj 0 x w (ix3 n s (col h t)) := by
  rw [val_main_v3_apply, val_main_v2_apply, val_main_v1_apply, val_main_v0_apply, proj_apply]
  refine Finset.sum_congr rfl fun d _ => ?_
  have el : lidx_main_v0 (idx_main_v1 (idx_main_v2 (idx_main_v3 (ix4 n h s t)))) d = ix3 n s d :=
    funext fun a => Fin.ext (by
      have := n.isLt; have := h.isLt; have := s.isLt; have := t.isLt
      match a with
      | ⟨0, _⟩ => show (((n.val * 2048 + s.val) * 16 + h.val) * 192 + (t.val)) / 6291456 = n.val; omega
      | ⟨1, _⟩ => show (((n.val * 2048 + s.val) * 16 + h.val) * 192 + (t.val)) / 3072 % 2048 = s.val; omega
      | ⟨2, _⟩ => rfl)
  have er : ridx_main_v0 (idx_main_v1 (idx_main_v2 (idx_main_v3 (ix4 n h s t)))) d = ix2 (row h 0 t) d :=
    funext fun a => Fin.ext (by
      have := n.isLt; have := h.isLt; have := s.isLt; have := t.isLt
      match a with
      | ⟨0, _⟩ =>
        show (((n.val * 2048 + s.val) * 16 + h.val) * 192 + (t.val)) % 3072 = 192 * h.val + 64 * 0 + t.val
        omega
      | ⟨1, _⟩ => rfl)
  rw [el, er]

/-- The key piece: lane t of head h at position s is column 192·h + 64·1 + t of the joint projection, that is
    component 1 of the projection at column 64·h + t. -/
theorem key_apply (x : Act) (w : Wqkv) (n : Fin 2) (h : Fin 16) (s : Fin 2048) (t : Fin 64) :
    val_main_v4 (F := Ideal) x w (ix4 n h s t) = proj 1 x w (ix3 n s (col h t)) := by
  rw [val_main_v4_apply, val_main_v2_apply, val_main_v1_apply, val_main_v0_apply, proj_apply]
  refine Finset.sum_congr rfl fun d _ => ?_
  have el : lidx_main_v0 (idx_main_v1 (idx_main_v2 (idx_main_v4 (ix4 n h s t)))) d = ix3 n s d :=
    funext fun a => Fin.ext (by
      have := n.isLt; have := h.isLt; have := s.isLt; have := t.isLt
      match a with
      | ⟨0, _⟩ => show (((n.val * 2048 + s.val) * 16 + h.val) * 192 + (64 + t.val)) / 6291456 = n.val; omega
      | ⟨1, _⟩ => show (((n.val * 2048 + s.val) * 16 + h.val) * 192 + (64 + t.val)) / 3072 % 2048 = s.val; omega
      | ⟨2, _⟩ => rfl)
  have er : ridx_main_v0 (idx_main_v1 (idx_main_v2 (idx_main_v4 (ix4 n h s t)))) d = ix2 (row h 1 t) d :=
    funext fun a => Fin.ext (by
      have := n.isLt; have := h.isLt; have := s.isLt; have := t.isLt
      match a with
      | ⟨0, _⟩ =>
        show (((n.val * 2048 + s.val) * 16 + h.val) * 192 + (64 + t.val)) % 3072 = 192 * h.val + 64 * 1 + t.val
        omega
      | ⟨1, _⟩ => rfl)
  rw [el, er]

/-- The value piece: lane t of head h at position s is column 192·h + 64·2 + t of the joint projection, that is
    component 2 of the projection at column 64·h + t. -/
theorem value_apply (x : Act) (w : Wqkv) (n : Fin 2) (h : Fin 16) (s : Fin 2048) (t : Fin 64) :
    val_main_v5 (F := Ideal) x w (ix4 n h s t) = proj 2 x w (ix3 n s (col h t)) := by
  rw [val_main_v5_apply, val_main_v2_apply, val_main_v1_apply, val_main_v0_apply, proj_apply]
  refine Finset.sum_congr rfl fun d _ => ?_
  have el : lidx_main_v0 (idx_main_v1 (idx_main_v2 (idx_main_v5 (ix4 n h s t)))) d = ix3 n s d :=
    funext fun a => Fin.ext (by
      have := n.isLt; have := h.isLt; have := s.isLt; have := t.isLt
      match a with
      | ⟨0, _⟩ => show (((n.val * 2048 + s.val) * 16 + h.val) * 192 + (128 + t.val)) / 6291456 = n.val; omega
      | ⟨1, _⟩ => show (((n.val * 2048 + s.val) * 16 + h.val) * 192 + (128 + t.val)) / 3072 % 2048 = s.val; omega
      | ⟨2, _⟩ => rfl)
  have er : ridx_main_v0 (idx_main_v1 (idx_main_v2 (idx_main_v5 (ix4 n h s t)))) d = ix2 (row h 2 t) d :=
    funext fun a => Fin.ext (by
      have := n.isLt; have := h.isLt; have := s.isLt; have := t.isLt
      match a with
      | ⟨0, _⟩ =>
        show (((n.val * 2048 + s.val) * 16 + h.val) * 192 + (128 + t.val)) % 3072 = 192 * h.val + 64 * 2 + t.val
        omega
      | ⟨1, _⟩ => rfl)
  rw [el, er]

/-! ## The logits -/

/-- The scalar 1.0 / √64.0, broadcast over the logits, is the scale 1/8 everywhere. -/
theorem scale_apply (i : S2x16x2048x2048.Idx) : val_main_v9 (F := Ideal) i = scale := by
  rw [val_main_v9_apply, val_main_v7_apply, val_main_cst_0_apply, val_main_v6_apply, val_main_cst_apply]
  exact scale_eq

/-- The scaled product of query row i with key row j, in batch n and head h. -/
theorem logit_apply (x : Act) (w : Wqkv) (n : Fin 2) (h : Fin 16) (i j : Fin 2048) :
    val_main_v10 (F := Ideal) x w (ix4 n h i j) = logit (proj 0 x w) (proj 1 x w) n h i j := by
  rw [val_main_v10_apply, val_main_v8_apply, scale_apply]
  show (∑ t : Fin 64, _) * scale = (∑ t : Fin 64, _) * scale
  refine congrArg (· * scale) (Finset.sum_congr rfl fun t _ => ?_)
  have el : lidx_main_v8 (ix4 n h i j) t = ix4 n h i t := funext fun a => Fin.ext (by match a with | ⟨0, _⟩ => rfl | ⟨1, _⟩ => rfl | ⟨2, _⟩ => rfl | ⟨3, _⟩ => rfl)
  have er : ridx_main_v8 (ix4 n h i j) t = ix4 n h j t := funext fun a => Fin.ext (by match a with | ⟨0, _⟩ => rfl | ⟨1, _⟩ => rfl | ⟨2, _⟩ => rfl | ⟨3, _⟩ => rfl)
  rw [el, er, query_apply, key_apply]

/-! ## The softmax over the keys -/

/-- A maximum-reduce of a [2, 16, 2048, 2048] array over its last axis, at (n, h, i): the fold of max, from the
    initial value, over the 2048 entries (n, h, i, j). -/
theorem reduceMax_apply (y : S2x16x2048x2048.Idx → EReal) (init : S_.Idx → EReal) (n : Fin 2) (h : Fin 16) (i : Fin 2048) :
    Host.reduce (FloatOps.maximumf (F := Ideal) (φ := .f32)) y init reducesTo_S2x16x2048x2048_S2x16x2048_d3 h_S_ (ix3 n h i)
      = (Finset.univ : Finset (Fin 2048)).fold max (init (Shape.Idx.first h_S_)) (fun j => y (ix4 n h i j)) := by
  rw [Host.reduce_eq_fold_single _ y init reducesTo_S2x16x2048x2048_S2x16x2048_d3 (by decide) h_S_]
  refine congrArg (fun g => (Finset.univ : Finset (Fin 2048)).fold max (init (Shape.Idx.first h_S_)) g) ?_
  funext j
  exact congrArg y (funext fun a => Fin.ext (by match a with | ⟨0, _⟩ => rfl | ⟨1, _⟩ => rfl | ⟨2, _⟩ => rfl | ⟨3, _⟩ => rfl))

/-- The row maximum: from −∞ over the keys, and once more against −∞. -/
theorem rowMax_apply (x : Act) (w : Wqkv) (n : Fin 2) (h : Fin 16) (i : Fin 2048) :
    val_main_v13 (F := Ideal) x w (ix3 n h i) = rowMax (proj 0 x w) (proj 1 x w) n h i := by
  rw [val_main_v13_apply, val_main_v12_apply, val_main_cst_2_apply]
  unfold val_main_v11
  rw [reduceMax_apply, val_main_cst_1_apply]
  simp only [logit_apply]
  rfl

/-- The exponential of a logit less its row's maximum. -/
theorem expo_apply (x : Act) (w : Wqkv) (n : Fin 2) (h : Fin 16) (i j : Fin 2048) :
    val_main_v17 (F := Ideal) x w (ix4 n h i j) = expo (proj 0 x w) (proj 1 x w) n h i j := by
  have e : idx_main_v14 (idx_main_v15 (ix4 n h i j)) = ix3 n h i := funext fun a => Fin.ext (by match a with | ⟨0, _⟩ => rfl | ⟨1, _⟩ => rfl | ⟨2, _⟩ => rfl)
  rw [val_main_v17_apply, val_main_v16_apply, val_main_v15_apply, val_main_v14_apply, logit_apply, e, rowMax_apply]
  rfl

/-- The sum of a row's exponentials, started from the zero word. -/
theorem denom_apply (x : Act) (w : Wqkv) (n : Fin 2) (h : Fin 16) (i : Fin 2048) :
    val_main_v18 (F := Ideal) x w (ix3 n h i) = denom (proj 0 x w) (proj 1 x w) n h i := by
  rw [val_main_v18_apply, val_main_cst_3_apply, Ideal.ofBits_def, Ideal.ofBits_zero_f32, zero_add]
  refine Finset.sum_congr rfl fun j _ => ?_
  have e : idx_main_v18 (ix3 n h i) j = ix4 n h i j := funext fun a => Fin.ext (by match a with | ⟨0, _⟩ => rfl | ⟨1, _⟩ => rfl | ⟨2, _⟩ => rfl | ⟨3, _⟩ => rfl)
  rw [e, expo_apply]

/-- The attention weight: the exponential over the row's sum. -/
theorem weight_apply (x : Act) (w : Wqkv) (n : Fin 2) (h : Fin 16) (i j : Fin 2048) :
    val_main_v21 (F := Ideal) x w (ix4 n h i j) = weight (proj 0 x w) (proj 1 x w) n h i j := by
  have e : idx_main_v19 (idx_main_v20 (ix4 n h i j)) = ix3 n h i := funext fun a => Fin.ext (by match a with | ⟨0, _⟩ => rfl | ⟨1, _⟩ => rfl | ⟨2, _⟩ => rfl)
  rw [val_main_v21_apply, val_main_v20_apply, val_main_v19_apply, expo_apply, e, denom_apply]
  rfl

/-! ## The weighted values, side by side, times the output weight -/

/-- Lane t of head h's result for query row i. -/
theorem headOut_apply (x : Act) (w : Wqkv) (n : Fin 2) (h : Fin 16) (i : Fin 2048) (t : Fin 64) :
    val_main_v22 (F := Ideal) x w (ix4 n h i t) = headOut (proj 0 x w) (proj 1 x w) (proj 2 x w) n h i t := by
  rw [val_main_v22_apply]
  refine Finset.sum_congr rfl fun j _ => ?_
  have el : lidx_main_v22 (ix4 n h i t) j = ix4 n h i j := funext fun a => Fin.ext (by match a with | ⟨0, _⟩ => rfl | ⟨1, _⟩ => rfl | ⟨2, _⟩ => rfl | ⟨3, _⟩ => rfl)
  have er : ridx_main_v22 (ix4 n h i t) j = ix4 n h j t := funext fun a => Fin.ext (by match a with | ⟨0, _⟩ => rfl | ⟨1, _⟩ => rfl | ⟨2, _⟩ => rfl | ⟨3, _⟩ => rfl)
  rw [el, er, weight_apply, value_apply]

/-- The heads' results put back side by side: column f holds lane f mod 64 of head f div 64. -/
theorem merged_apply (x : Act) (w : Wqkv) (n : Fin 2) (s : Fin 2048) (f : Fin 1024) :
    val_main_v24 (F := Ideal) x w (ix3 n s f)
      = headOut (proj 0 x w) (proj 1 x w) (proj 2 x w) n (headOf f) s (laneOf f) := by
  have e : idx_main_v23 (idx_main_v24 (ix3 n s f)) = ix4 n (headOf f) s (laneOf f) :=
    funext fun a => Fin.ext (by
      have := n.isLt; have := s.isLt; have := f.isLt
      match a with
      | ⟨0, _⟩ => show ((n.val * 2048 + s.val) * 1024 + f.val) / 2097152 = n.val; omega
      | ⟨1, _⟩ => show ((n.val * 2048 + s.val) * 1024 + f.val) / 64 % 16 = f.val / 64; omega
      | ⟨2, _⟩ => show ((n.val * 2048 + s.val) * 1024 + f.val) / 1024 % 2048 = s.val; omega
      | ⟨3, _⟩ => show ((n.val * 2048 + s.val) * 1024 + f.val) % 64 = f.val % 64; omega)
  rw [val_main_v24_apply, val_main_v23_apply, e, headOut_apply]

/-- The reference's last stage is the specification's result, entry by entry. -/
theorem result_eq (x : Act) (w : Wqkv) (o : Sq) : val_main_v25 (F := Ideal) x w o = result x w o := by
  funext i
  obtain ⟨n, s, e, rfl⟩ : ∃ (n : Fin 2) (s : Fin 2048) (e : Fin 1024), i = ix3 n s e := ⟨i 0, i 1, i 2, eq_ix3 i⟩
  rw [val_main_v25_apply]
  show _ = attnOut (proj 0 x w) (proj 1 x w) (proj 2 x w) (transposeSq o) (ix3 n s e)
  rw [attnOut_apply]
  refine Finset.sum_congr rfl fun f _ => ?_
  have el : lidx_main_v25 (ix3 n s e) f = ix3 n s f := funext fun a => Fin.ext (by match a with | ⟨0, _⟩ => rfl | ⟨1, _⟩ => rfl | ⟨2, _⟩ => rfl)
  have er : ridx_main_v25 (ix3 n s e) f = ix2 e f := funext fun a => Fin.ext (by match a with | ⟨0, _⟩ => rfl | ⟨1, _⟩ => rfl)
  rw [el, er, merged_apply, transposeSq_apply]

/-! ## The run -/

/-- Every weakly fair execution of the reference terminates with its result array at the specification's result of
    the three argument arrays, and the argument arrays unchanged. -/
theorem run_result (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v25)
          = Cert.Attn.result (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m' ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans ((val_main_v25_eq m' c).trans (result_eq _ _ _)), (h c).2⟩)
    (Cert.ReferenceIdeal.Value.run (F := Ideal) m' ρ')

end Cert.Attn.Ref

end
-- ==== Proof.lean ====
/-
  Multi-head self-attention, kernel against reference, at the ideal values.

  The kernel is two regions.  The first multiplies the flattened input by the query, key and value slices of the joint
  projection weight (re-laid on the host so that head h occupies columns 64·h … 64·h + 63) and leaves the three
  projections.  The second, at each of its 2 × 8 grid points, computes the sixteen heads of one batch's 256-row tile —
  logits scaled by 1/8, a row maximum, exponentials, their sum, the quotient, the weighted value rows — side by side and
  multiplies them into the transposed output weight.  The reference does the same with one joint projection, a reshape
  and transpose into heads, the scale 1/√64 computed on the host, and the softmax spelt with the same operations.

  Both results are ONE function of the three argument arrays (the specification): on the reference's side by reading its
  run one operation at a time; on the kernel's side by naming the result array of its run, reading the second region's
  write-backs as the specification's output of the arrays that region was entered with, and reading those arrays as the
  three projections and the transposed weight.  Nothing but re-indexing of finite sums of extended reals and the equation
  1/√64 = 1/8 joins the two sides, so the finiteness precondition is never opened.  The idealization rewrote no
  operation, so its conjunct is trivial; the kernels' frames are the generated ones and the reference's frame is its run
  with the result dropped.
-/
import proofs.«147579_j43447889166453_2_alg».proof.Defs
import proofs.«147579_j43447889166453_2_alg».proof.Proof.Gen.Kernel
import proofs.«147579_j43447889166453_2_alg».proof.Proof.Gen.Kernel.Skeleton
import proofs.«147579_j43447889166453_2_alg».proof.Proof.Gen.Kernel.Launch
import proofs.«147579_j43447889166453_2_alg».proof.Proof.Gen.Kernel.Points
import proofs.«147579_j43447889166453_2_alg».proof.Proof.Gen.Kernel.Frame
import proofs.«147579_j43447889166453_2_alg».proof.Proof.Gen.KernelIdeal
import proofs.«147579_j43447889166453_2_alg».proof.Proof.Gen.KernelIdeal.Skeleton
import proofs.«147579_j43447889166453_2_alg».proof.Proof.Gen.KernelIdeal.Launch
import proofs.«147579_j43447889166453_2_alg».proof.Proof.Gen.KernelIdeal.Points
import proofs.«147579_j43447889166453_2_alg».proof.Proof.Gen.KernelIdeal.Frame
import proofs.«147579_j43447889166453_2_alg».proof.Proof.Gen.ReferenceIdeal
import proofs.«147579_j43447889166453_2_alg».proof.Proof.Gen.Pre_finite_inputs
import proofs.«147579_j43447889166453_2_alg».proof.Proof.Gen.ReferenceIdeal.Run
import proofs.«147579_j43447889166453_2_alg».proof.Proof.Gen.ReferenceIdeal.Read
import proofs.«147579_j43447889166453_2_alg».proof.Proof.Spec
import proofs.«147579_j43447889166453_2_alg».proof.Proof.KernelRun
import proofs.«147579_j43447889166453_2_alg».proof.Proof.Region1
import proofs.«147579_j43447889166453_2_alg».proof.Proof.EntryValue
import proofs.«147579_j43447889166453_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.Attn.Ref.run_result m ρ)

/-- The idealization rewrote no operation. -/
theorem preserves : Cert.preserves_Kernel_KernelIdeal := trivial

/-- The kernel's result array after its run is the specification of the launch arrays: the last boundary's contents
    at the result are the second region's output array, which is the specification's output of the arrays that region
    is entered with, and those are the three projections and the transposed output weight. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 (F := Ideal) m ρ c (Proc.devRef .tc Cert.KernelIdeal.main_v19)
      = Cert.Attn.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.Run.W4_result, Cert.KernelIdeal.Region1.final (Cert.KernelIdeal.Gen.V3 m ρ) c]
  show Cert.Attn.attnOut _ _ _ _ = _
  rw [Cert.Attn.Entry.V3_q m ρ c, Cert.Attn.Entry.V3_k m ρ c, Cert.Attn.Entry.V3_v m ρ c, Cert.Attn.Entry.V3_wo m ρ c]
  rfl

/-- Both programs run, and both end with the specification of the (agreeing) argument arrays. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_result m ρ c), (h c).2⟩)
      (Cert.KernelIdeal.Run.run_main (F := Ideal) m ρ)
  · exact (θ_run Cert.ReferenceIdeal.defs _ _).mono
      (fun _ h c => ⟨by rw [(h c).1, (hagree c).1, (hagree c).2.1, (hagree c).2.2], (h c).2⟩)
      (Cert.Attn.Ref.run_result m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
